-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S4194304 : Shape := ⟨1, ![4194304]⟩
abbrev S262144 : Shape := ⟨1, ![262144]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S4194304 : S_.BroadcastsInDim S4194304 (![] : Fin 0 → Fin S4194304.rank)
  reducesTo_S4194304_S_d0 : S4194304.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S32x1 .f32) (main_arg15 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg14
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S32 .f32) (main_arg11 : FVec F S32x32 .f32) (main_arg12 : FVec F S32x32 .f32) (main_arg13 : FVec F S32 .f32) (main_arg14 : FVec F S32x1 .f32) (main_arg15 : FVec F S1 .f32) (main_v33 : IVec S_ 1) : IVec S_ 1 :=
  let main_v34 : FVec F S32 .f32 := Host.absf main_arg10
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg11
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg12
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg14 main_arg15 main_v48 main_v49 main_v50

def fn_part1 {F : FTy → Type} [FloatOps F] (main_arg7 : FVec F S32 .f32) (main_arg8 : FVec F S32x32 .f32) (main_arg9 : FVec F S32x32 .f32) (main_arg10 : FVec F S32 .f32) (main_arg11 : FVec F S32x32 .f32) (main_arg12 : FVec F S32x32 .f32) (main_arg13 : FVec F S32 .f32) (main_arg14 : FVec F S32x1 .f32) (main_arg15 : FVec F S1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg8
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg9
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S262144x1 .f32) (main_arg1 : IVec S4194304 32) (main_arg2 : IVec S4194304 32) (main_arg3 : FVec F S4194304 .f32) (main_arg4 : IVec S262144 32) (main_arg5 : FVec F S1x32 .f32) (main_arg6 : FVec F S1x32 .f32) (main_arg7 : FVec F S32 .f32) (main_arg8 : FVec F S32x32 .f32) (main_arg9 : FVec F S32x32 .f32) (main_arg10 : FVec F S32 .f32) (main_arg11 : FVec F S32x32 .f32) (main_arg12 : FVec F S32x32 .f32) (main_arg13 : FVec F S32 .f32) (main_arg14 : FVec F S32x1 .f32) (main_arg15 : FVec F S1 .f32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S4194304 .f32 := Host.absf main_arg3
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S1x32 .f32 := Host.absf main_arg5
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S1x32 .f32 := Host.absf main_arg6
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg7 main_arg8 main_arg9 main_arg10 main_arg11 main_arg12 main_arg13 main_arg14 main_arg15 main_v13 main_v16
-- ==== Kernel.lean ====
abbrev S262144x1 : Shape := ⟨2, ![262144, 1]⟩
abbrev S4194304 : Shape := ⟨1, ![4194304]⟩
abbrev S262144 : Shape := ⟨1, ![262144]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S262144x32 : Shape := ⟨2, ![262144, 32]⟩
abbrev S8192x1 : Shape := ⟨2, ![8192, 1]⟩
abbrev S8192x32 : Shape := ⟨2, ![8192, 32]⟩
abbrev S_ : Shape := ⟨0, ![]⟩
abbrev S4194304x1 : Shape := ⟨2, ![4194304, 1]⟩
abbrev S4194304x32 : Shape := ⟨2, ![4194304, 32]⟩
abbrev S4096x32 : Shape := ⟨2, ![4096, 32]⟩
abbrev S4096 : Shape := ⟨1, ![4096]⟩
abbrev S4096x1 : Shape := ⟨2, ![4096, 1]⟩
abbrev S1x1 : Shape := ⟨2, ![1, 1]⟩

abbrev nBuf : Space → Nat
  | .hbm => 90
  | .vmem => 49
  | .smem => 0
  | _ => 0

abbrev bufTy : (tb : Table) → Fin (tcTables nBuf tb) → BufTy
  | .hbm, ⟨0, _⟩ => ⟨S262144x1, .f32⟩
  | .hbm, ⟨1, _⟩ => ⟨S4194304, .i32⟩
  | .hbm, ⟨2, _⟩ => ⟨S4194304, .i32⟩
  | .hbm, ⟨3, _⟩ => ⟨S4194304, .f32⟩
  | .hbm, ⟨4, _⟩ => ⟨S262144, .i32⟩
  | .hbm, ⟨5, _⟩ => ⟨S1x32, .f32⟩
  | .hbm, ⟨6, _⟩ => ⟨S1x32, .f32⟩
  | .hbm, ⟨7, _⟩ => ⟨S32, .f32⟩
  | .hbm, ⟨8, _⟩ => ⟨S32x32, .f32⟩
  | .hbm, ⟨9, _⟩ => ⟨S32x32, .f32⟩
  | .hbm, ⟨10, _⟩ => ⟨S32, .f32⟩
  | .hbm, ⟨11, _⟩ => ⟨S32x32, .f32⟩
  | .hbm, ⟨12, _⟩ => ⟨S32x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S262144x32, .f32⟩
  | .hbm, ⟨17, _⟩ => ⟨S262144x32, .f32⟩
  | .hbm, ⟨18, _⟩ => ⟨S_, .i32⟩
  | .hbm, ⟨19, _⟩ => ⟨S4194304, .i32⟩
  | .hbm, ⟨20, _⟩ => ⟨S4194304, .i1⟩
  | .hbm, ⟨21, _⟩ => ⟨S_, .i32⟩
  | .hbm, ⟨22, _⟩ => ⟨S4194304, .i32⟩
  | .hbm, ⟨23, _⟩ => ⟨S4194304, .i32⟩
  | .hbm, ⟨24, _⟩ => ⟨S4194304, .i32⟩
  | .hbm, ⟨25, _⟩ => ⟨S4194304x1, .i32⟩
  | .hbm, ⟨26, _⟩ => ⟨S4194304x32, .f32⟩
  | .hbm, ⟨27, _⟩ => ⟨S4194304x1, .f32⟩
  | .hbm, ⟨28, _⟩ => ⟨S4194304x32, .f32⟩
  | .hbm, ⟨29, _⟩ => ⟨S4194304x32, .f32⟩
  | .hbm, ⟨30, _⟩ => ⟨S_, .f32⟩
  | .hbm, ⟨31, _⟩ => ⟨S262144x32, .f32⟩
  | .hbm, ⟨32, _⟩ => ⟨S4194304x1, .i32⟩
  | .hbm, ⟨33, _⟩ => ⟨S262144x32, .f32⟩
  | .hbm, ⟨34, _⟩ => ⟨S262144x32, .f32⟩
  | .hbm, ⟨35, _⟩ => ⟨S262144x32, .f32⟩
  | .hbm, ⟨36, _⟩ => ⟨S262144x32, .f32⟩
  | .hbm, ⟨37, _⟩ => ⟨S_, .i32⟩
  | .hbm, ⟨38, _⟩ => ⟨S4194304, .i32⟩
  | .hbm, ⟨39, _⟩ => ⟨S4194304, .i1⟩
  | .hbm, ⟨40, _⟩ => ⟨S_, .i32⟩
  | .hbm, ⟨41, _⟩ => ⟨S4194304, .i32⟩
  | .hbm, ⟨42, _⟩ => ⟨S4194304, .i32⟩
  | .hbm, ⟨43, _⟩ => ⟨S4194304, .i32⟩
  | .hbm, ⟨44, _⟩ => ⟨S4194304x1, .i32⟩
  | .hbm, ⟨45, _⟩ => ⟨S4194304x32, .f32⟩
  | .hbm, ⟨46, _⟩ => ⟨S4194304x1, .f32⟩
  | .hbm, ⟨47, _⟩ => ⟨S4194304x32, .f32⟩
  | .hbm, ⟨48, _⟩ => ⟨S4194304x32, .f32⟩
  | .hbm, ⟨49, _⟩ => ⟨S_, .f32⟩
  | .hbm, ⟨50, _⟩ => ⟨S262144x32, .f32⟩
  | .hbm, ⟨51, _⟩ => ⟨S4194304x1, .i32⟩
  | .hbm, ⟨52, _⟩ => ⟨S262144x32, .f32⟩
  | .hbm, ⟨53, _⟩ => ⟨S262144x32, .f32⟩
  | .hbm, ⟨54, _⟩ => ⟨S262144x32, .f32⟩
  | .hbm, ⟨55, _⟩ => ⟨S262144x32, .f32⟩
  | .hbm, ⟨56, _⟩ => ⟨S_, .i32⟩
  | .hbm, ⟨57, _⟩ => ⟨S4194304, .i32⟩
  | .hbm, ⟨58, _⟩ => ⟨S4194304, .i1⟩
  | .hbm, ⟨59, _⟩ => ⟨S_, .i32⟩
  | .hbm, ⟨60, _⟩ => ⟨S4194304, .i32⟩
  | .hbm, ⟨61, _⟩ => ⟨S4194304, .i32⟩
  | .hbm, ⟨62, _⟩ => ⟨S4194304, .i32⟩
  | .hbm, ⟨63, _⟩ => ⟨S4194304x1, .i32⟩
  | .hbm, ⟨64, _⟩ => ⟨S4194304x32, .f32⟩
  | .hbm, ⟨65, _⟩ => ⟨S4194304x1, .f32⟩
  | .hbm, ⟨66, _⟩ => ⟨S4194304x32, .f32⟩
  | .hbm, ⟨67, _⟩ => ⟨S4194304x32, .f32⟩
  | .hbm, ⟨68, _⟩ => ⟨S_, .f32⟩
  | .hbm, ⟨69, _⟩ => ⟨S262144x32, .f32⟩
  | .hbm, ⟨70, _⟩ => ⟨S4194304x1, .i32⟩
  | .hbm, ⟨71, _⟩ => ⟨S262144x32, .f32⟩
  | .hbm, ⟨72, _⟩ => ⟨S262144x32, .f32⟩
  | .hbm, ⟨73, _⟩ => ⟨S_, .f32⟩
  | .hbm, ⟨74, _⟩ => ⟨S4096x32, .f32⟩
  | .hbm, ⟨75, _⟩ => ⟨S262144x1, .i32⟩
  | .hbm, ⟨76, _⟩ => ⟨S4096x32, .f32⟩
  | .hbm, ⟨77, _⟩ => ⟨S_, .f32⟩
  | .hbm, ⟨78, _⟩ => ⟨S262144, .f32⟩
  | .hbm, ⟨79, _⟩ => ⟨S_, .f32⟩
  | .hbm, ⟨80, _⟩ => ⟨S4096, .f32⟩
  | .hbm, ⟨81, _⟩ => ⟨S262144x1, .i32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S4096x1, .f32⟩
  | .hbm, ⟨87, _⟩ => ⟨S4096x32, .f32⟩
  | .hbm, ⟨88, _⟩ => ⟨S4096x32, .f32⟩
  | .hbm, ⟨89, _⟩ => ⟨S4096x1, .f32⟩
  | .local _ .vmem, ⟨0, _⟩ => ⟨S8192x1, .f32⟩
  | .local _ .vmem, ⟨1, _⟩ => ⟨S8192x1, .f32⟩
  | .local _ .vmem, ⟨2, _⟩ => ⟨S1x32, .f32⟩
  | .local _ .vmem, ⟨3, _⟩ => ⟨S1x32, .f32⟩
  | .local _ .vmem, ⟨4, _⟩ => ⟨S8192x32, .f32⟩
  | .local _ .vmem, ⟨5, _⟩ => ⟨S8192x32, .f32⟩
  | .local _ .vmem, ⟨6, _⟩ => ⟨S8192x32, .f32⟩
  | .local _ .vmem, ⟨7, _⟩ => ⟨S8192x32, .f32⟩
  | .local _ .vmem, ⟨8, _⟩ => ⟨S8192x32, .f32⟩
  | .local _ .vmem, ⟨9, _⟩ => ⟨S8192x32, .f32⟩
  | .local _ .vmem, ⟨10, _⟩ => ⟨S8192x32, .f32⟩
  | .local _ .vmem, ⟨11, _⟩ => ⟨S8192x32, .f32⟩
  | .local _ .vmem, ⟨12, _⟩ => ⟨S32, .f32⟩
  | .local _ .vmem, ⟨13, _⟩ => ⟨S8192x32, .f32⟩
  | .local _ .vmem, ⟨14, _⟩ => ⟨S8192x32, .f32⟩
  | .local _ .vmem, ⟨15, _⟩ => ⟨S8192x32, .f32⟩
  | .local _ .vmem, ⟨16, _⟩ => ⟨S8192x32, .f32⟩
  | .local _ .vmem, ⟨17, _⟩ => ⟨S32x32, .f32⟩
  | .local _ .vmem, ⟨18, _⟩ => ⟨S32x32, .f32⟩
  | .local _ .vmem, ⟨19, _⟩ => ⟨S8192x32, .f32⟩
  | .local _ .vmem, ⟨20, _⟩ => ⟨S8192x32, .f32⟩
  | .local _ .vmem, ⟨21, _⟩ => ⟨S8192x32, .f32⟩
  | .local _ .vmem, ⟨22, _⟩ => ⟨S8192x32, .f32⟩
  | .local _ .vmem, ⟨23, _⟩ => ⟨S8192x32, .f32⟩
  | .local _ .vmem, ⟨24, _⟩ => ⟨S8192x32, .f32⟩
  | .local _ .vmem, ⟨25, _⟩ => ⟨S8192x32, .f32⟩
  | .local _ .vmem, ⟨26, _⟩ => ⟨S8192x32, .f32⟩
  | .local _ .vmem, ⟨27, _⟩ => ⟨S32, .f32⟩
  | .local _ .vmem, ⟨28, _⟩ => ⟨S8192x32, .f32⟩
  | .local _ .vmem, ⟨29, _⟩ => ⟨S8192x32, .f32⟩
  | .local _ .vmem, ⟨30, _⟩ => ⟨S8192x32, .f32⟩
  | .local _ .vmem, ⟨31, _⟩ => ⟨S8192x32, .f32⟩
  | .local _ .vmem, ⟨32, _⟩ => ⟨S32x32, .f32⟩
  | .local _ .vmem, ⟨33, _⟩ => ⟨S32x32, .f32⟩
  | .local _ .vmem, ⟨34, _⟩ => ⟨S8192x32, .f32⟩
  | .local _ .vmem, ⟨35, _⟩ => ⟨S8192x32, .f32⟩
  | .local _ .vmem, ⟨36, _⟩ => ⟨S8192x32, .f32⟩
  | .local _ .vmem, ⟨37, _⟩ => ⟨S8192x32, .f32⟩
  | .local _ .vmem, ⟨38, _⟩ => ⟨S8192x32, .f32⟩
  | .local _ .vmem, ⟨39, _⟩ => ⟨S8192x32, .f32⟩
  | .local _ .vmem, ⟨40, _⟩ => ⟨S8192x32, .f32⟩
  | .local _ .vmem, ⟨41, _⟩ => ⟨S8192x32, .f32⟩
  | .local _ .vmem, ⟨42, _⟩ => ⟨S32, .f32⟩
  | .local _ .vmem, ⟨43, _⟩ => ⟨S8192x32, .f32⟩
  | .local _ .vmem, ⟨44, _⟩ => ⟨S8192x32, .f32⟩
  | .local _ .vmem, ⟨45, _⟩ => ⟨S4096x32, .f32⟩
  | .local _ .vmem, ⟨46, _⟩ => ⟨S32x1, .f32⟩
  | .local _ .vmem, ⟨47, _⟩ => ⟨S1, .f32⟩
  | .local _ .vmem, ⟨48, _⟩ => ⟨S4096x1, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem3_1 : DmaSem sig := 44
abbrev cc6_sem0_0 : DmaSem sig := 45
abbrev cc6_sem1_0 : DmaSem sig := 46
abbrev cc6_sem2_0 : DmaSem sig := 47
abbrev cc6_sem3_0 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8192x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8192x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8192x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8192x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S4096x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S32x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S4096x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  inb_S8192x1_S8192x1_0_0 : ∀ a, (![0, 0] : Fin 2 → Nat) a + S8192x1.size a ≤ S8192x1.size a
  h_S8192x1 : 0 < S8192x1.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  inb_S8192x32_S8192x32_0_0 : ∀ a, (![0, 0] : Fin 2 → Nat) a + S8192x32.size a ≤ S8192x32.size a
  h_S8192x32 : 0 < S8192x32.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x32_0_1 : S4194304x1.BroadcastsInDim S4194304x32 (![0, 1] : Fin 2 → Fin S4194304x32.rank)
  bcast_S_S262144x32 : S_.BroadcastsInDim S262144x32 (![] : Fin 0 → Fin S262144x32.rank)
  shapeCasts_S8192x32_S8192x32 : S8192x32.ShapeCasts S8192x32
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  inb_S32x32_S32x32_0_0 : ∀ a, (![0, 0] : Fin 2 → Nat) a + S32x32.size a ≤ S32x32.size a
  h_S32x32 : 0 < S32x32.numel
  bcast_S_S4096x32 : S_.BroadcastsInDim S4096x32 (![] : Fin 0 → Fin S4096x32.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S8192x1_S1x32_S8192x32_1_0_0_1_n_n_wf : DotDims.WF S8192x1 S1x32 S8192x32 [1] [0] [0] [1] [] []
  gather_S262144x32_S4194304x1_S4194304x32_1_0_n_n_0_1_132_wf : GatherDims.WF S262144x32 S4194304x1 S4194304x32 [1] [0] [] [0] [] 1 ![1, 32]
  scatter_S262144x32_S4194304x1_S4194304x32_1_0_0_1_wf : ScatterDims.WF S262144x32 S4194304x1 S4194304x32 [1] [0] [0] 1
  dot_S8192x32_S32x32_S8192x32_1_0_0_1_n_n_wf : DotDims.WF S8192x32 S32x32 S8192x32 [1] [0] [0] [1] [] []
  scatter_S4096x32_S262144x1_S262144x32_1_0_0_1_wf : ScatterDims.WF S4096x32 S262144x1 S262144x32 [1] [0] [0] 1
  scatter_S4096_S262144x1_S262144_n_0_0_1_wf : ScatterDims.WF S4096 S262144x1 S262144 [] [0] [0] 1
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S262144x1.size a
  hwx0_0 : ∀ i : grid0.Coords, EltTy.bits .f32 = 32 ∨ (Rect.block (s := S262144x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x32.size a ≤ S262144x32.size a
  hwx0_3 : ∀ i : grid0.Coords, EltTy.bits .f32 = 32 ∨ (Rect.block (s := S262144x32) S8192x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x32.size a ≤ S262144x32.size a
  hwx0_4 : ∀ i : grid0.Coords, EltTy.bits .f32 = 32 ∨ (Rect.block (s := S262144x32) S8192x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S262144x32.size a
  hwx1_0 : ∀ i : grid1.Coords, EltTy.bits .f32 = 32 ∨ (Rect.block (s := S262144x32) S8192x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S262144x32.size a
  hwx1_1 : ∀ i : grid1.Coords, EltTy.bits .f32 = 32 ∨ (Rect.block (s := S262144x32) S8192x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x32.size a ≤ S262144x32.size a
  hwx1_3 : ∀ i : grid1.Coords, EltTy.bits .f32 = 32 ∨ (Rect.block (s := S262144x32) S8192x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x32.size a ≤ S262144x32.size a
  hwx2_0 : ∀ i : grid2.Coords, EltTy.bits .f32 = 32 ∨ (Rect.block (s := S262144x32) S8192x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x32.size a ≤ S262144x32.size a
  hwx2_3 : ∀ i : grid2.Coords, EltTy.bits .f32 = 32 ∨ (Rect.block (s := S262144x32) S8192x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8192x32.size a ≤ S262144x32.size a
  hwx2_4 : ∀ i : grid2.Coords, EltTy.bits .f32 = 32 ∨ (Rect.block (s := S262144x32) S8192x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x32.size a ≤ S262144x32.size a
  hwx3_0 : ∀ i : grid3.Coords, EltTy.bits .f32 = 32 ∨ (Rect.block (s := S262144x32) S8192x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x32.size a ≤ S262144x32.size a
  hwx3_1 : ∀ i : grid3.Coords, EltTy.bits .f32 = 32 ∨ (Rect.block (s := S262144x32) S8192x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x32.size a ≤ S262144x32.size a
  hwx3_3 : ∀ i : grid3.Coords, EltTy.bits .f32 = 32 ∨ (Rect.block (s := S262144x32) S8192x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x32.size a ≤ S262144x32.size a
  hwx4_0 : ∀ i : grid4.Coords, EltTy.bits .f32 = 32 ∨ (Rect.block (s := S262144x32) S8192x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x32.size a ≤ S262144x32.size a
  hwx4_3 : ∀ i : grid4.Coords, EltTy.bits .f32 = 32 ∨ (Rect.block (s := S262144x32) S8192x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8192x32.size a ≤ S262144x32.size a
  hwx4_4 : ∀ i : grid4.Coords, EltTy.bits .f32 = 32 ∨ (Rect.block (s := S262144x32) S8192x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x32.size a ≤ S262144x32.size a
  hwx5_0 : ∀ i : grid5.Coords, EltTy.bits .f32 = 32 ∨ (Rect.block (s := S262144x32) S8192x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x32.size a ≤ S262144x32.size a
  hwx5_1 : ∀ i : grid5.Coords, EltTy.bits .f32 = 32 ∨ (Rect.block (s := S262144x32) S8192x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32.size a ≤ S32.size a
  hwx5_2 : ∀ i : grid5.Coords, EltTy.bits .f32 = 32 ∨ (Rect.block (s := S32) S32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8192x32.size a ≤ S262144x32.size a
  hwx5_3 : ∀ i : grid5.Coords, EltTy.bits .f32 = 32 ∨ (Rect.block (s := S262144x32) S8192x32.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S4096x32.size a ≤ S4096x32.size a
  hwx6_0 : ∀ i : grid6.Coords, EltTy.bits .f32 = 32 ∨ (Rect.block (s := S4096x32) S4096x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x1.size a ≤ S32x1.size a
  hwx6_1 : ∀ i : grid6.Coords, EltTy.bits .f32 = 32 ∨ (Rect.block (s := S32x1) S32x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1.size a ≤ S1.size a
  hwx6_2 : ∀ i : grid6.Coords, EltTy.bits .f32 = 32 ∨ (Rect.block (s := S1) S1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S4096x1.size a ≤ S4096x1.size a
  hwx6_3 : ∀ i : grid6.Coords, EltTy.bits .f32 = 32 ∨ (Rect.block (s := S4096x1) S4096x1.size (cc6_transform_3 i) (hinb6_3 i)).WholeWords (EltTy.packing .f32)

variable [Facts₀]

def dot_S8192x1_S1x32_S8192x32_1_0_0_1_n_n : DotDims S8192x1 S1x32 S8192x32 where
  lhsContracting := [1]
  rhsContracting := [0]
  lhsNonContracting := [0]
  rhsNonContracting := [1]
  lhsBatch := []
  rhsBatch := []
  wf := dot_S8192x1_S1x32_S8192x32_1_0_0_1_n_n_wf
def gather_S262144x32_S4194304x1_S4194304x32_1_0_n_n_0_1_132 : GatherDims S262144x32 S4194304x1 S4194304x32 where
  offsetDims := [1]
  collapsedSliceDims := [0]
  operandBatchingDims := []
  startIndicesBatchingDims := []
  startIndexMap := [0]
  indexVectorDim := 1
  sliceSizes := ![1, 32]
  wf := gather_S262144x32_S4194304x1_S4194304x32_1_0_n_n_0_1_132_wf
def scatter_S262144x32_S4194304x1_S4194304x32_1_0_0_1 : ScatterDims S262144x32 S4194304x1 S4194304x32 where
  updateWindowDims := [1]
  insertedWindowDims := [0]
  scatterDimsToOperandDims := [0]
  indexVectorDim := 1
  wf := scatter_S262144x32_S4194304x1_S4194304x32_1_0_0_1_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def scatter_S4096x32_S262144x1_S262144x32_1_0_0_1 : ScatterDims S4096x32 S262144x1 S262144x32 where
  updateWindowDims := [1]
  insertedWindowDims := [0]
  scatterDimsToOperandDims := [0]
  indexVectorDim := 1
  wf := scatter_S4096x32_S262144x1_S262144x32_1_0_0_1_wf
def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_arg0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8192x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8192x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S8192x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S8192x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15_0) S8192x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15_1) S8192x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S8192x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_1) S8192x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S8192x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v29) S8192x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30_0) S8192x32.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v30_1) S8192x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v43) S8192x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30_1) S8192x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S8192x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v56) S4096x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S32x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg15) S1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S4096x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S262144x1 : Shape := ⟨2, ![262144, 1]⟩
abbrev S4194304 : Shape := ⟨1, ![4194304]⟩
abbrev S262144 : Shape := ⟨1, ![262144]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S262144x32 : Shape := ⟨2, ![262144, 32]⟩
abbrev S_ : Shape := ⟨0, ![]⟩
abbrev S4194304x1 : Shape := ⟨2, ![4194304, 1]⟩
abbrev S4194304x32 : Shape := ⟨2, ![4194304, 32]⟩
abbrev S4096x32 : Shape := ⟨2, ![4096, 32]⟩
abbrev S4096 : Shape := ⟨1, ![4096]⟩
abbrev S4096x1 : Shape := ⟨2, ![4096, 1]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S262144x1, .f32⟩
  | .hbm, ⟨1, _⟩ => ⟨S4194304, .i32⟩
  | .hbm, ⟨2, _⟩ => ⟨S4194304, .i32⟩
  | .hbm, ⟨3, _⟩ => ⟨S4194304, .f32⟩
  | .hbm, ⟨4, _⟩ => ⟨S262144, .i32⟩
  | .hbm, ⟨5, _⟩ => ⟨S1x32, .f32⟩
  | .hbm, ⟨6, _⟩ => ⟨S1x32, .f32⟩
  | .hbm, ⟨7, _⟩ => ⟨S32, .f32⟩
  | .hbm, ⟨8, _⟩ => ⟨S32x32, .f32⟩
  | .hbm, ⟨9, _⟩ => ⟨S32x32, .f32⟩
  | .hbm, ⟨10, _⟩ => ⟨S32, .f32⟩
  | .hbm, ⟨11, _⟩ => ⟨S32x32, .f32⟩
  | .hbm, ⟨12, _⟩ => ⟨S32x32, .f32⟩
  | .hbm, ⟨13, _⟩ => ⟨S32, .f32⟩
  | .hbm, ⟨14, _⟩ => ⟨S32x1, .f32⟩
  | .hbm, ⟨15, _⟩ => ⟨S1, .f32⟩
  | .hbm, ⟨16, _⟩ => ⟨S262144x32, .f32⟩
  | .hbm, ⟨17, _⟩ => ⟨S_, .i32⟩
  | .hbm, ⟨18, _⟩ => ⟨S4194304, .i32⟩
  | .hbm, ⟨19, _⟩ => ⟨S4194304, .i1⟩
  | .hbm, ⟨20, _⟩ => ⟨S_, .i32⟩
  | .hbm, ⟨21, _⟩ => ⟨S4194304, .i32⟩
  | .hbm, ⟨22, _⟩ => ⟨S4194304, .i32⟩
  | .hbm, ⟨23, _⟩ => ⟨S4194304, .i32⟩
  | .hbm, ⟨24, _⟩ => ⟨S4194304x1, .i32⟩
  | .hbm, ⟨25, _⟩ => ⟨S4194304x32, .f32⟩
  | .hbm, ⟨26, _⟩ => ⟨S4194304x1, .f32⟩
  | .hbm, ⟨27, _⟩ => ⟨S4194304x32, .f32⟩
  | .hbm, ⟨28, _⟩ => ⟨S4194304x32, .f32⟩
  | .hbm, ⟨29, _⟩ => ⟨S_, .f32⟩
  | .hbm, ⟨30, _⟩ => ⟨S262144x32, .f32⟩
  | .hbm, ⟨31, _⟩ => ⟨S4194304x1, .i32⟩
  | .hbm, ⟨32, _⟩ => ⟨S262144x32, .f32⟩
  | .hbm, ⟨33, _⟩ => ⟨S262144x32, .f32⟩
  | .hbm, ⟨34, _⟩ => ⟨S262144x32, .f32⟩
  | .hbm, ⟨35, _⟩ => ⟨S1x32, .f32⟩
  | .hbm, ⟨36, _⟩ => ⟨S262144x32, .f32⟩
  | .hbm, ⟨37, _⟩ => ⟨S262144x32, .f32⟩
  | .hbm, ⟨38, _⟩ => ⟨S_, .f32⟩
  | .hbm, ⟨39, _⟩ => ⟨S262144x32, .f32⟩
  | .hbm, ⟨40, _⟩ => ⟨S262144x32, .f32⟩
  | .hbm, ⟨41, _⟩ => ⟨S262144x32, .f32⟩
  | .hbm, ⟨42, _⟩ => ⟨S_, .i32⟩
  | .hbm, ⟨43, _⟩ => ⟨S4194304, .i32⟩
  | .hbm, ⟨44, _⟩ => ⟨S4194304, .i1⟩
  | .hbm, ⟨45, _⟩ => ⟨S_, .i32⟩
  | .hbm, ⟨46, _⟩ => ⟨S4194304, .i32⟩
  | .hbm, ⟨47, _⟩ => ⟨S4194304, .i32⟩
  | .hbm, ⟨48, _⟩ => ⟨S4194304, .i32⟩
  | .hbm, ⟨49, _⟩ => ⟨S4194304x1, .i32⟩
  | .hbm, ⟨50, _⟩ => ⟨S4194304x32, .f32⟩
  | .hbm, ⟨51, _⟩ => ⟨S4194304x1, .f32⟩
  | .hbm, ⟨52, _⟩ => ⟨S4194304x32, .f32⟩
  | .hbm, ⟨53, _⟩ => ⟨S4194304x32, .f32⟩
  | .hbm, ⟨54, _⟩ => ⟨S_, .f32⟩
  | .hbm, ⟨55, _⟩ => ⟨S262144x32, .f32⟩
  | .hbm, ⟨56, _⟩ => ⟨S4194304x1, .i32⟩
  | .hbm, ⟨57, _⟩ => ⟨S262144x32, .f32⟩
  | .hbm, ⟨58, _⟩ => ⟨S262144x32, .f32⟩
  | .hbm, ⟨59, _⟩ => ⟨S262144x32, .f32⟩
  | .hbm, ⟨60, _⟩ => ⟨S1x32, .f32⟩
  | .hbm, ⟨61, _⟩ => ⟨S262144x32, .f32⟩
  | .hbm, ⟨62, _⟩ => ⟨S262144x32, .f32⟩
  | .hbm, ⟨63, _⟩ => ⟨S_, .f32⟩
  | .hbm, ⟨64, _⟩ => ⟨S262144x32, .f32⟩
  | .hbm, ⟨65, _⟩ => ⟨S262144x32, .f32⟩
  | .hbm, ⟨66, _⟩ => ⟨S262144x32, .f32⟩
  | .hbm, ⟨67, _⟩ => ⟨S_, .i32⟩
  | .hbm, ⟨68, _⟩ => ⟨S4194304, .i32⟩
  | .hbm, ⟨69, _⟩ => ⟨S4194304, .i1⟩
  | .hbm, ⟨70, _⟩ => ⟨S_, .i32⟩
  | .hbm, ⟨71, _⟩ => ⟨S4194304, .i32⟩
  | .hbm, ⟨72, _⟩ => ⟨S4194304, .i32⟩
  | .hbm, ⟨73, _⟩ => ⟨S4194304, .i32⟩
  | .hbm, ⟨74, _⟩ => ⟨S4194304x1, .i32⟩
  | .hbm, ⟨75, _⟩ => ⟨S4194304x32, .f32⟩
  | .hbm, ⟨76, _⟩ => ⟨S4194304x1, .f32⟩
  | .hbm, ⟨77, _⟩ => ⟨S4194304x32, .f32⟩
  | .hbm, ⟨78, _⟩ => ⟨S4194304x32, .f32⟩
  | .hbm, ⟨79, _⟩ => ⟨S_, .f32⟩
  | .hbm, ⟨80, _⟩ => ⟨S262144x32, .f32⟩
  | .hbm, ⟨81, _⟩ => ⟨S4194304x1, .i32⟩
  | .hbm, ⟨82, _⟩ => ⟨S262144x32, .f32⟩
  | .hbm, ⟨83, _⟩ => ⟨S262144x32, .f32⟩
  | .hbm, ⟨84, _⟩ => ⟨S262144x32, .f32⟩
  | .hbm, ⟨85, _⟩ => ⟨S1x32, .f32⟩
  | .hbm, ⟨86, _⟩ => ⟨S262144x32, .f32⟩
  | .hbm, ⟨87, _⟩ => ⟨S262144x32, .f32⟩
  | .hbm, ⟨88, _⟩ => ⟨S_, .f32⟩
  | .hbm, ⟨89, _⟩ => ⟨S262144x32, .f32⟩
  | .hbm, ⟨90, _⟩ => ⟨S262144x32, .f32⟩
  | .hbm, ⟨91, _⟩ => ⟨S_, .f32⟩
  | .hbm, ⟨92, _⟩ => ⟨S4096x32, .f32⟩
  | .hbm, ⟨93, _⟩ => ⟨S262144x1, .i32⟩
  | .hbm, ⟨94, _⟩ => ⟨S4096x32, .f32⟩
  | .hbm, ⟨95, _⟩ => ⟨S_, .f32⟩
  | .hbm, ⟨96, _⟩ => ⟨S262144, .f32⟩
  | .hbm, ⟨97, _⟩ => ⟨S_, .f32⟩
  | .hbm, ⟨98, _⟩ => ⟨S4096, .f32⟩
  | .hbm, ⟨99, _⟩ => ⟨S262144x1, .i32⟩
  | .hbm, ⟨100, _⟩ => ⟨S4096, .f32⟩
  | .hbm, ⟨101, _⟩ => ⟨S_, .f32⟩
  | .hbm, ⟨102, _⟩ => ⟨S4096, .f32⟩
  | .hbm, ⟨103, _⟩ => ⟨S4096, .f32⟩
  | .hbm, ⟨104, _⟩ => ⟨S4096x1, .f32⟩
  | .hbm, ⟨105, _⟩ => ⟨S4096x32, .f32⟩
  | .hbm, ⟨106, _⟩ => ⟨S4096x32, .f32⟩
  | .hbm, ⟨107, _⟩ => ⟨S4096x1, .f32⟩
  | .hbm, ⟨108, _⟩ => ⟨S1x1, .f32⟩
  | .hbm, ⟨109, _⟩ => ⟨S4096x1, .f32⟩
  | .hbm, ⟨110, _⟩ => ⟨S4096x1, .f32⟩
  | .hbm, ⟨111, _⟩ => ⟨S4096x1, .f32⟩
  | .hbm, ⟨112, _⟩ => ⟨S4096x1, .f32⟩
  | .hbm, ⟨113, _⟩ => ⟨S_, .f32⟩
  | .hbm, ⟨114, _⟩ => ⟨S4096x1, .f32⟩
  | .hbm, ⟨115, _⟩ => ⟨S4096x1, .f32⟩
  | .hbm, ⟨116, _⟩ => ⟨S_, .f32⟩
  | .hbm, ⟨117, _⟩ => ⟨S4096x1, .f32⟩
  | .hbm, ⟨118, _⟩ => ⟨S4096x1, .f32⟩
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_v40 : Ref sig .tc := ⟨.hbm, 66, rfl⟩
abbrev main_c_4 : Ref sig .tc := ⟨.hbm, 67, rfl⟩
abbrev main_v41 : Ref sig .tc := ⟨.hbm, 68, rfl⟩
abbrev main_v42 : Ref sig .tc := ⟨.hbm, 69, rfl⟩
abbrev main_c_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call2_cst : Ref sig .tc := ⟨.hbm, 88, rfl⟩
abbrev main_call2_v0 : Ref sig .tc := ⟨.hbm, 89, rfl⟩
abbrev main_v59 : Ref sig .tc := ⟨.hbm, 90, rfl⟩
abbrev main_cst_7 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_8 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_11 : Ref sig .tc := ⟨.hbm, 113, rfl⟩
abbrev main_v78 : Ref sig .tc := ⟨.hbm, 114, rfl⟩
abbrev main_v79 : Ref sig .tc := ⟨.hbm, 115, rfl⟩
abbrev main_cst_12 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x32_0_1 : S4194304x1.BroadcastsInDim S4194304x32 (![0, 1] : Fin 2 → Fin S4194304x32.rank)
  bcast_S_S262144x32 : S_.BroadcastsInDim S262144x32 (![] : Fin 0 → Fin S262144x32.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S4096x32 : S_.BroadcastsInDim S4096x32 (![] : Fin 0 → Fin S4096x32.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  dot_S262144x1_S1x32_S262144x32_1_0_0_1_n_n_wf : DotDims.WF S262144x1 S1x32 S262144x32 [1] [0] [0] [1] [] []
  gather_S262144x32_S4194304x1_S4194304x32_1_0_n_n_0_1_132_wf : GatherDims.WF S262144x32 S4194304x1 S4194304x32 [1] [0] [] [0] [] 1 ![1, 32]
  scatter_S262144x32_S4194304x1_S4194304x32_1_0_0_1_wf : ScatterDims.WF S262144x32 S4194304x1 S4194304x32 [1] [0] [0] 1
  dot_S262144x32_S32x32_S262144x32_1_0_0_1_n_n_wf : DotDims.WF S262144x32 S32x32 S262144x32 [1] [0] [0] [1] [] []
  scatter_S4096x32_S262144x1_S262144x32_1_0_0_1_wf : ScatterDims.WF S4096x32 S262144x1 S262144x32 [1] [0] [0] 1
  scatter_S4096_S262144x1_S262144_n_0_0_1_wf : ScatterDims.WF S4096 S262144x1 S262144 [] [0] [0] 1
  dot_S4096x32_S32x1_S4096x1_1_0_0_1_n_n_wf : DotDims.WF S4096x32 S32x1 S4096x1 [1] [0] [0] [1] [] []

variable [Facts₀]

def dot_S262144x1_S1x32_S262144x32_1_0_0_1_n_n : DotDims S262144x1 S1x32 S262144x32 where
  lhsContracting := [1]
  rhsContracting := [0]
  lhsNonContracting := [0]
  rhsNonContracting := [1]
  lhsBatch := []
  rhsBatch := []
  wf := dot_S262144x1_S1x32_S262144x32_1_0_0_1_n_n_wf
def gather_S262144x32_S4194304x1_S4194304x32_1_0_n_n_0_1_132 : GatherDims S262144x32 S4194304x1 S4194304x32 where
  offsetDims := [1]
  collapsedSliceDims := [0]
  operandBatchingDims := []
  startIndicesBatchingDims := []
  startIndexMap := [0]
  indexVectorDim := 1
  sliceSizes := ![1, 32]
  wf := gather_S262144x32_S4194304x1_S4194304x32_1_0_n_n_0_1_132_wf
def scatter_S262144x32_S4194304x1_S4194304x32_1_0_0_1 : ScatterDims S262144x32 S4194304x1 S4194304x32 where
  updateWindowDims := [1]
  insertedWindowDims := [0]
  scatterDimsToOperandDims := [0]
  indexVectorDim := 1
  wf := scatter_S262144x32_S4194304x1_S4194304x32_1_0_0_1_wf
def dot_S262144x32_S32x32_S262144x32_1_0_0_1_n_n : DotDims S262144x32 S32x32 S262144x32 where
  lhsContracting := [1]
  rhsContracting := [0]
  lhsNonContracting := [0]
  rhsNonContracting := [1]
  lhsBatch := []
  rhsBatch := []
  wf := dot_S262144x32_S32x32_S262144x32_1_0_0_1_n_n_wf
def scatter_S4096x32_S262144x1_S262144x32_1_0_0_1 : ScatterDims S4096x32 S262144x1 S262144x32 where
  updateWindowDims := [1]
  insertedWindowDims := [0]
  scatterDimsToOperandDims := [0]
  indexVectorDim := 1
  wf := scatter_S4096x32_S262144x1_S262144x32_1_0_0_1_wf
def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.RunAll.lean ====
/-
  The idealized kernel program's run, with every buffer named. Its @main is eleven segments: seven kernel regions
  among four stretches of host operations. The contents of the TensorCore's buffers at each segment boundary are a
  fold from the launch memory: a host stretch applies its operations, a region leaves each of its output arrays
  at what its grid points wrote back and every other buffer as it found it. Here the run is stated with that fold
  in its post: every weakly fair execution terminates, nothing faults, and every unscoped buffer ends at the last
  boundary's contents. The result array is one of those buffers, and the arguments read back to the launch memory.
-/
import proofs.«129428_j71330816852788_2_alg».proof.Proof.KernelIdealFrameP

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in the final memory every unscoped buffer of
    every core holds the last boundary's contents: the eleven segments run in order from the launch memory, each
    entered at the contents the one before leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The run, read at the result array and the arguments: the result array ends at the last boundary's contents, the
    arguments as launched. -/
theorem run_result : θ_run defs (onTc (τ := τ) (main (F := F))) ⟨m, fun _ => 0, ρ⟩ (fun r => ∀ c : Dev nD,
      r.2.mem ((c.tc : Thread nD τ).loc main_v57) = W11 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨h c _ (mem_uc main_v57 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)
    (run_all m ρ)

end Cert.KernelIdeal.Whole

end
-- ==== Proof.Keep.lean ====
/-
  What each segment of the idealized kernel program leaves alone. The buffer contents at the segment boundaries are a
  fold from the launch memory. A kernel region changes only its output arrays; a stretch of host operations changes
  only the buffers its operations write. So an argument array reads the same at every boundary as in the launch
  memory, and the second output of each projection region — read only two segments later — is still there when the
  next region reads it.
-/
import proofs.«129428_j71330816852788_2_alg».proof.Proof.KernelIdealFrameP

set_option maxRecDepth 16384

noncomputable section

namespace Cert.KernelIdeal.Whole

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.StableHlo

variable {F : FTy → Type} [FloatOps F]
variable (m : (ℓ : Loc nD τ sig) → Buf (Elt F) ℓ) (ρ : Dev nD → PrngReg)

/-- The sixteen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15]
/-- The arguments and the self-term array of the first layer. -/
abbrev keptBy1 : List (Ref sig .tc) := main_v0_1 :: argRefs
/-- The arguments and the self-term array of the second layer. -/
abbrev keptBy3 : List (Ref sig .tc) := main_v15_1 :: argRefs
/-- The arguments and the self-term array of the third layer. -/
abbrev keptBy5 : List (Ref sig .tc) := main_v30_1 :: argRefs

theorem ne_of_mem {l : List (Ref sig .tc)} {x : Ref sig .tc} (hx : x ∉ l) : ∀ b ∈ l, b ≠ x :=
  fun b hb e => hx (e ▸ hb)

/-- The host stretch `hostOps1` writes none of these buffers. -/
theorem keepH1 (W : Valuation τ sig (Elt F)) :
    (keptBy1).Forall fun b => StableHlo.after (hostOps1 (F := F)) W (Proc.devRef .tc b) = W (Proc.devRef .tc b) := by
  simp only [keptBy1, argRefs, List.Forall]
  repeat' apply And.intro
  all_goals (dsimp only [hostOps1]; after_results_simp <;> rfl)

/-- The host stretch `hostOps3` writes none of these buffers. -/
theorem keepH3 (W : Valuation τ sig (Elt F)) :
    (keptBy3).Forall fun b => StableHlo.after (hostOps3 (F := F)) W (Proc.devRef .tc b) = W (Proc.devRef .tc b) := by
  simp only [keptBy3, argRefs, List.Forall]
  repeat' apply And.intro
  all_goals (dsimp only [hostOps3]; after_results_simp <;> rfl)

/-- The host stretch `hostOps5` writes none of these buffers. -/
theorem keepH5 (W : Valuation τ sig (Elt F)) :
    (keptBy5).Forall fun b => StableHlo.after (hostOps5 (F := F)) W (Proc.devRef .tc b) = W (Proc.devRef .tc b) := by
  simp only [keptBy5, argRefs, List.Forall]
  repeat' apply And.intro
  all_goals (dsimp only [hostOps5]; after_results_simp <;> rfl)

/-- The host stretch `hostOps6` writes none of these buffers. -/
theorem keepH6 (W : Valuation τ sig (Elt F)) :
    (argRefs).Forall fun b => StableHlo.after (hostOps6 (F := F)) W (Proc.devRef .tc b) = W (Proc.devRef .tc b) := by
  simp only [argRefs, argRefs, List.Forall]
  repeat' apply And.intro
  all_goals (dsimp only [hostOps6]; after_results_simp <;> rfl)

/-- Region 0 leaves every buffer other than its output arrays as it found it: an input array is read, never
    written, and a buffer that is none of its arrays is not touched. -/
theorem keepR0 (c : Dev nD) (b : Ref sig .tc) (h3 : b ≠ main_v0_0) (h4 : b ≠ main_v0_1) :
    W1 m ρ c (Proc.devRef .tc b) = W0 m ρ c (Proc.devRef .tc b) := by
  by_cases hw : ∃ w, Pipeline.arrRef spec0 w = b
  · obtain ⟨w, rfl⟩ := hw
    rw [W1_arr]
    match w with
    | ⟨0, _⟩ => exact ((dat0 (V0 m ρ) c).arrAt_in 0 rfl _).trans (A_eq0 (V0 m ρ) c 0)
    | ⟨1, _⟩ => exact ((dat0 (V0 m ρ) c).arrAt_in 1 rfl _).trans (A_eq0 (V0 m ρ) c 1)
    | ⟨2, _⟩ => exact ((dat0 (V0 m ρ) c).arrAt_in 2 rfl _).trans (A_eq0 (V0 m ρ) c 2)
    | ⟨3, _⟩ => exact absurd rfl h3
    | ⟨4, _⟩ => exact absurd rfl h4
  · exact W1_of_ne m ρ c b (fun w e => hw ⟨w, e⟩)

/-- Region 1 leaves every buffer other than its output arrays as it found it: an input array is read, never
    written, and a buffer that is none of its arrays is not touched. -/
theorem keepR1 (c : Dev nD) (b : Ref sig .tc) (h3 : b ≠ main_v14) :
    W3 m ρ c (Proc.devRef .tc b) = W2 m ρ c (Proc.devRef .tc b) := by
  by_cases hw : ∃ w, Pipeline.arrRef spec1 w = b
  · obtain ⟨w, rfl⟩ := hw
    rw [W3_arr]
    match w with
    | ⟨0, _⟩ => exact ((dat1 (V2 m ρ) c).arrAt_in 0 rfl _).trans (A_eq1 (V2 m ρ) c 0)
    | ⟨1, _⟩ => exact ((dat1 (V2 m ρ) c).arrAt_in 1 rfl _).trans (A_eq1 (V2 m ρ) c 1)
    | ⟨2, _⟩ => exact ((dat1 (V2 m ρ) c).arrAt_in 2 rfl _).trans (A_eq1 (V2 m ρ) c 2)
    | ⟨3, _⟩ => exact absurd rfl h3
  · exact W3_of_ne m ρ c b (fun w e => hw ⟨w, e⟩)

/-- Region 2 leaves every buffer other than its output arrays as it found it: an input array is read, never
    written, and a buffer that is none of its arrays is not touched. -/
theorem keepR2 (c : Dev nD) (b : Ref sig .tc) (h3 : b ≠ main_v15_0) (h4 : b ≠ main_v15_1) :
    W4 m ρ c (Proc.devRef .tc b) = W3 m ρ c (Proc.devRef .tc b) := by
  by_cases hw : ∃ w, Pipeline.arrRef spec2 w = b
  · obtain ⟨w, rfl⟩ := hw
    rw [W4_arr]
    match w with
    | ⟨0, _⟩ => exact ((dat2 (V3 m ρ) c).arrAt_in 0 rfl _).trans (A_eq2 (V3 m ρ) c 0)
    | ⟨1, _⟩ => exact ((dat2 (V3 m ρ) c).arrAt_in 1 rfl _).trans (A_eq2 (V3 m ρ) c 1)
    | ⟨2, _⟩ => exact ((dat2 (V3 m ρ) c).arrAt_in 2 rfl _).trans (A_eq2 (V3 m ρ) c 2)
    | ⟨3, _⟩ => exact absurd rfl h3
    | ⟨4, _⟩ => exact absurd rfl h4
  · exact W4_of_ne m ρ c b (fun w e => hw ⟨w, e⟩)

/-- Region 3 leaves every buffer other than its output arrays as it found it: an input array is read, never
    written, and a buffer that is none of its arrays is not touched. -/
theorem keepR3 (c : Dev nD) (b : Ref sig .tc) (h3 : b ≠ main_v29) :
    W6 m ρ c (Proc.devRef .tc b) = W5 m ρ c (Proc.devRef .tc b) := by
  by_cases hw : ∃ w, Pipeline.arrRef spec3 w = b
  · obtain ⟨w, rfl⟩ := hw
    rw [W6_arr]
    match w with
    | ⟨0, _⟩ => exact ((dat3 (V5 m ρ) c).arrAt_in 0 rfl _).trans (A_eq3 (V5 m ρ) c 0)
    | ⟨1, _⟩ => exact ((dat3 (V5 m ρ) c).arrAt_in 1 rfl _).trans (A_eq3 (V5 m ρ) c 1)
    | ⟨2, _⟩ => exact ((dat3 (V5 m ρ) c).arrAt_in 2 rfl _).trans (A_eq3 (V5 m ρ) c 2)
    | ⟨3, _⟩ => exact absurd rfl h3
  · exact W6_of_ne m ρ c b (fun w e => hw ⟨w, e⟩)

/-- Region 4 leaves every buffer other than its output arrays as it found it: an input array is read, never
    written, and a buffer that is none of its arrays is not touched. -/
theorem keepR4 (c : Dev nD) (b : Ref sig .tc) (h3 : b ≠ main_v30_0) (h4 : b ≠ main_v30_1) :
    W7 m ρ c (Proc.devRef .tc b) = W6 m ρ c (Proc.devRef .tc b) := by
  by_cases hw : ∃ w, Pipeline.arrRef spec4 w = b
  · obtain ⟨w, rfl⟩ := hw
    rw [W7_arr]
    match w with
    | ⟨0, _⟩ => exact ((dat4 (V6 m ρ) c).arrAt_in 0 rfl _).trans (A_eq4 (V6 m ρ) c 0)
    | ⟨1, _⟩ => exact ((dat4 (V6 m ρ) c).arrAt_in 1 rfl _).trans (A_eq4 (V6 m ρ) c 1)
    | ⟨2, _⟩ => exact ((dat4 (V6 m ρ) c).arrAt_in 2 rfl _).trans (A_eq4 (V6 m ρ) c 2)
    | ⟨3, _⟩ => exact absurd rfl h3
    | ⟨4, _⟩ => exact absurd rfl h4
  · exact W7_of_ne m ρ c b (fun w e => hw ⟨w, e⟩)

/-- Region 5 leaves every buffer other than its output arrays as it found it: an input array is read, never
    written, and a buffer that is none of its arrays is not touched. -/
theorem keepR5 (c : Dev nD) (b : Ref sig .tc) (h3 : b ≠ main_v44) :
    W9 m ρ c (Proc.devRef .tc b) = W8 m ρ c (Proc.devRef .tc b) := by
  by_cases hw : ∃ w, Pipeline.arrRef spec5 w = b
  · obtain ⟨w, rfl⟩ := hw
    rw [W9_arr]
    match w with
    | ⟨0, _⟩ => exact ((dat5 (V8 m ρ) c).arrAt_in 0 rfl _).trans (A_eq5 (V8 m ρ) c 0)
    | ⟨1, _⟩ => exact ((dat5 (V8 m ρ) c).arrAt_in 1 rfl _).trans (A_eq5 (V8 m ρ) c 1)
    | ⟨2, _⟩ => exact ((dat5 (V8 m ρ) c).arrAt_in 2 rfl _).trans (A_eq5 (V8 m ρ) c 2)
    | ⟨3, _⟩ => exact absurd rfl h3
  · exact W9_of_ne m ρ c b (fun w e => hw ⟨w, e⟩)

/-! ## The arguments at every boundary -/

theorem argAt0 (c : Dev nD) : ∀ b ∈ argRefs, W0 m ρ c (Proc.devRef .tc b) = m ((c : Thread nD τ).loc b) :=
  fun _ _ => rfl
theorem argAt1 (c : Dev nD) : ∀ b ∈ argRefs, W1 m ρ c (Proc.devRef .tc b) = m ((c : Thread nD τ).loc b) :=
  fun b hb => (keepR0 m ρ c b (ne_of_mem (by decide) b hb) (ne_of_mem (by decide) b hb)).trans (argAt0 m ρ c b hb)
theorem argAt2 (c : Dev nD) : ∀ b ∈ argRefs, W2 m ρ c (Proc.devRef .tc b) = m ((c : Thread nD τ).loc b) :=
  fun b hb => ((List.forall_iff_forall_mem.mp (keepH1 (W1 m ρ c))) b (List.mem_cons_of_mem _ hb)).trans (argAt1 m ρ c b hb)
theorem argAt3 (c : Dev nD) : ∀ b ∈ argRefs, W3 m ρ c (Proc.devRef .tc b) = m ((c : Thread nD τ).loc b) :=
  fun b hb => (keepR1 m ρ c b (ne_of_mem (by decide) b hb)).trans (argAt2 m ρ c b hb)
theorem argAt4 (c : Dev nD) : ∀ b ∈ argRefs, W4 m ρ c (Proc.devRef .tc b) = m ((c : Thread nD τ).loc b) :=
  fun b hb => (keepR2 m ρ c b (ne_of_mem (by decide) b hb) (ne_of_mem (by decide) b hb)).trans (argAt3 m ρ c b hb)
theorem argAt5 (c : Dev nD) : ∀ b ∈ argRefs, W5 m ρ c (Proc.devRef .tc b) = m ((c : Thread nD τ).loc b) :=
  fun b hb => ((List.forall_iff_forall_mem.mp (keepH3 (W4 m ρ c))) b (List.mem_cons_of_mem _ hb)).trans (argAt4 m ρ c b hb)
theorem argAt6 (c : Dev nD) : ∀ b ∈ argRefs, W6 m ρ c (Proc.devRef .tc b) = m ((c : Thread nD τ).loc b) :=
  fun b hb => (keepR3 m ρ c b (ne_of_mem (by decide) b hb)).trans (argAt5 m ρ c b hb)
theorem argAt7 (c : Dev nD) : ∀ b ∈ argRefs, W7 m ρ c (Proc.devRef .tc b) = m ((c : Thread nD τ).loc b) :=
  fun b hb => (keepR4 m ρ c b (ne_of_mem (by decide) b hb) (ne_of_mem (by decide) b hb)).trans (argAt6 m ρ c b hb)
theorem argAt8 (c : Dev nD) : ∀ b ∈ argRefs, W8 m ρ c (Proc.devRef .tc b) = m ((c : Thread nD τ).loc b) :=
  fun b hb => ((List.forall_iff_forall_mem.mp (keepH5 (W7 m ρ c))) b (List.mem_cons_of_mem _ hb)).trans (argAt7 m ρ c b hb)
theorem argAt9 (c : Dev nD) : ∀ b ∈ argRefs, W9 m ρ c (Proc.devRef .tc b) = m ((c : Thread nD τ).loc b) :=
  fun b hb => (keepR5 m ρ c b (ne_of_mem (by decide) b hb)).trans (argAt8 m ρ c b hb)
theorem argAt10 (c : Dev nD) : ∀ b ∈ argRefs, W10 m ρ c (Proc.devRef .tc b) = m ((c : Thread nD τ).loc b) :=
  fun b hb => ((List.forall_iff_forall_mem.mp (keepH6 (W9 m ρ c))) b hb).trans (argAt9 m ρ c b hb)

/-! ## The self-term arrays, one host stretch later -/

theorem self1 (c : Dev nD) : W2 m ρ c (Proc.devRef .tc main_v0_1) = W1 m ρ c (Proc.devRef .tc main_v0_1) :=
  (List.forall_iff_forall_mem.mp (keepH1 (W1 m ρ c))) main_v0_1 List.mem_cons_self
theorem self2 (c : Dev nD) : W5 m ρ c (Proc.devRef .tc main_v15_1) = W4 m ρ c (Proc.devRef .tc main_v15_1) :=
  (List.forall_iff_forall_mem.mp (keepH3 (W4 m ρ c))) main_v15_1 List.mem_cons_self
theorem self3 (c : Dev nD) : W8 m ρ c (Proc.devRef .tc main_v30_1) = W7 m ρ c (Proc.devRef .tc main_v30_1) :=
  (List.forall_iff_forall_mem.mp (keepH5 (W7 m ρ c))) main_v30_1 List.mem_cons_self

end Cert.KernelIdeal.Whole

end
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.LibPlainDot.lean ====
/-
  The host's matrix product read at an index given by coordinates, at the ideal values, for any extents and element
  formats: for the plain dimension numbers — an `M × K` left operand and a `K × N` right operand contracted over the
  left's columns and the right's rows, no batch axis — a `dot_general` is, at `(i, j)`, the sum over `k` of
  `l (i, k) · r (k, j)`, whatever its precision and schedule keys. At the ideal values the host's product and a
  kernel's product into a zero accumulator are the same sum over the contraction shape, so the kernel's reading
  carries over.
-/
import proofs.«129428_j71330816852788_2_alg».proof.Proof.LibPlainMatmul

namespace Cert.LibPlainDot

open Idealize.ShloMosaic Idealize.ShloMosaic.ValueIdx

/-- The host product of an `M × K` and a `K × N` matrix, read at `(i, j)`. -/
theorem dotGeneral_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (i : Fin M) (j : Fin N) :
    FloatOps.dotGeneral D prec sched l r (ix2 i j) = ∑ k : Fin K, l (ix2 i k) * r (ix2 k j) := by
  rw [Ideal.dotGeneral_apply, ← Ideal.matmul_constant_zero_apply D prec l r (ix2 i j)]
  exact Cert.LibPlainMatmul.matmul_zero_apply D hlc hrc hln hrn hlb hrb prec l r i j

end Cert.LibPlainDot
-- ==== Proof.Spec.lean ====
/-
  The three array functions this network is made of, index by index on the extended reals, for any extents:
  the matrix product of an `M × K` and a `K × N` array; a graph-convolution layer's last step, the positive part of
  the neighbourhood sum plus the self term plus a bias row; and the read-out, the logistic function of a product with
  one column plus a bias. Both programs are read against these. Also here: the host's `dot_general` with the plain
  dimension numbers is the product.
-/
import proofs.«129428_j71330816852788_2_alg».proof.Proof.LibPlainDot
import Idealize.ShloMosaic.Lib.ValueIdx

noncomputable section

namespace Cert.Spec

open Idealize.ShloMosaic Idealize.ShloMosaic.ValueIdx

/-- The row of a rank-2 index, as a number below the row count. -/
abbrev row {M N : ℕ} (i : (⟨2, ![M, N]⟩ : Shape).Idx) : Fin M := ⟨(i 0).val, idx2_lt0 i⟩
/-- The column of a rank-2 index, as a number below the column count. -/
abbrev col {M N : ℕ} (i : (⟨2, ![M, N]⟩ : Shape).Idx) : Fin N := ⟨(i 1).val, idx2_lt1 i⟩

/-- Row `p` of the `r`-th block of 8192 rows, in an array of 32 such blocks. -/
def rowOf (r : ℕ) (hr : r < 32) (p : Fin 8192) : Fin 262144 := ⟨r * 8192 + p.val, by have := p.isLt; omega⟩

theorem rowOf_val (r : ℕ) (hr : r < 32) (p : Fin 8192) : (rowOf r hr p).val = r * 8192 + p.val := rfl

/-- The matrix product: entry `(r, c)` is the sum over `k` of `x (r, k) · w (k, c)`. -/
def mm {M K N : ℕ} (x : FVec Ideal ⟨2, ![M, K]⟩ .f32) (w : FVec Ideal ⟨2, ![K, N]⟩ .f32) : FVec Ideal ⟨2, ![M, N]⟩ .f32 :=
  fun i => ∑ k : Fin K, x (ix2 (row i) k) * w (ix2 k (col i))

theorem mm_ix2 {M K N : ℕ} (x : FVec Ideal ⟨2, ![M, K]⟩ .f32) (w : FVec Ideal ⟨2, ![K, N]⟩ .f32) (p : Fin M) (q : Fin N) :
    mm x w (ix2 p q) = ∑ k : Fin K, x (ix2 p k) * w (ix2 k q) := rfl

/-- A layer's last step: entry `(r, c)` is the larger of zero and `(a (r, c) + b (r, c)) + bias c`. The zero is kept as
    the float word both programs spell it with. -/
def comb {M N : ℕ} (a b : FVec Ideal ⟨2, ![M, N]⟩ .f32) (bias : FVec Ideal ⟨1, ![N]⟩ .f32) : FVec Ideal ⟨2, ![M, N]⟩ .f32 :=
  fun i => max ((a i + b i) + bias (ix1 (col i))) (Ideal.ofBits .f32 0x00000000#32)

theorem comb_ix2 {M N : ℕ} (a b : FVec Ideal ⟨2, ![M, N]⟩ .f32) (bias : FVec Ideal ⟨1, ![N]⟩ .f32) (p : Fin M) (q : Fin N) :
    comb a b bias (ix2 p q) = max ((a (ix2 p q) + b (ix2 p q)) + bias (ix1 q)) (Ideal.ofBits .f32 0x00000000#32) := rfl

/-- The read-out: entry `(g, 0)` is the logistic function of `Σ_k p (g, k) · wd (k, 0) + bd 0`. -/
def headF {G K : ℕ} (p : FVec Ideal ⟨2, ![G, K]⟩ .f32) (wd : FVec Ideal ⟨2, ![K, 1]⟩ .f32) (bd : FVec Ideal ⟨1, ![1]⟩ .f32) :
    FVec Ideal ⟨2, ![G, 1]⟩ .f32 :=
  fun i => Ideal.logistic (mm p wd i + bd (ix1 (0 : Fin 1)))

theorem headF_ix2 {G K : ℕ} (p : FVec Ideal ⟨2, ![G, K]⟩ .f32) (wd : FVec Ideal ⟨2, ![K, 1]⟩ .f32) (bd : FVec Ideal ⟨1, ![1]⟩ .f32)
    (g : Fin G) (u : Fin 1) :
    headF p wd bd (ix2 g u) = Ideal.logistic ((∑ k : Fin K, p (ix2 g k) * wd (ix2 k u)) + bd (ix1 (0 : Fin 1))) := rfl

/-- The host's `dot_general` with the plain dimension numbers is the matrix product, whatever its precision key. -/
theorem hostDot_eq_mm {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ .f32) (w : FVec Ideal ⟨2, ![K, N]⟩ .f32) :
    Host.dotGeneral (F := Ideal) D prec x w = mm x w := by
  funext i
  obtain ⟨p, q, rfl⟩ : ∃ (p : Fin M) (q : Fin N), i = ix2 p q := ⟨i 0, i 1, eq_ix2 i⟩
  exact Cert.LibPlainDot.dotGeneral_apply D hlc hrc hln hrn hlb hrb prec .single x w p q

end Cert.Spec

end
-- ==== Proof.Proj0.lean ====
/-
  The first layer's projection region. Its grid has 32 points; point `t` reads rows `8192 t … 8192 t + 8191` of the
  node features (a `262144 × 1` array) and two whole `1 × 32` weight rows, multiplies the block by each row (rounding to
  bfloat16 first, which at the ideal values changes nothing) and writes the two products back as the same rows of its
  two output arrays. The row blocks tile the outputs, so after the region each output array is the matrix product of
  the whole feature array with its weight row — for any contents of the buffers at entry.
-/
import proofs.«129428_j71330816852788_2_alg».proof.Proof.KernelIdealFrameP
import proofs.«129428_j71330816852788_2_alg».proof.Proof.Spec
import Idealize.ShloMosaic.Lib.Pipeline.Value

set_option maxRecDepth 16384

noncomputable section

namespace Cert.KernelIdeal.Proj0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hN : cfg0.N = 32 := N_0

/-- A grid point is one of the 32 row blocks. -/
theorem ht (t : Fin cfg0.N) : t.val < 32 := by have := t.isLt; have h32 : cfg0.N = 32 := hN; omega

/-- The body's first product, entry by entry: the block times the first matrix. -/
theorem pay2_apply (x0 : Vec Ideal S8192x1 .f32) (x1 : Vec Ideal S1x32 .f32) (p : Fin 8192) (q : Fin 32) :
    k0_pay2 x0 x1 (ix2 p q) = ∑ k : Fin 1, x0 (ix2 p k) * x1 (ix2 k q) := by
  simp only [k0_pay2, k0_pay1]
  exact Cert.LibPlainMatmul.matmul_zero_apply dot_S8192x1_S1x32_S8192x32_1_0_0_1_n_n rfl rfl rfl rfl rfl rfl none _ _ p q

/-- The body's second product, entry by entry: the block times the second matrix. -/
theorem pay3_apply (x0 : Vec Ideal S8192x1 .f32) (x2 : Vec Ideal S1x32 .f32) (p : Fin 8192) (q : Fin 32) :
    k0_pay3 x0 x2 (ix2 p q) = ∑ k : Fin 1, x0 (ix2 p k) * x2 (ix2 k q) := by
  simp only [k0_pay3, k0_pay1]
  exact Cert.LibPlainMatmul.matmul_zero_apply dot_S8192x1_S1x32_S8192x32_1_0_0_1_n_n rfl rfl rfl rfl rfl rfl none _ _ p q

/-- The printed index maps over the grid: the input and both outputs move down one row block per point, the weight
    matrices stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A block product is the rows of the whole product: if `x0` is rows `8192 r …` of `X` and `x1` is `Wt`, then the
    product of `x0` and `x1` at `y` is the product of `X` and `Wt` at row `8192 r + y₀`, column `y₁`. -/
theorem block_eq2 (X : FVec Ideal S262144x1 .f32) (Wt : FVec Ideal S1x32 .f32) (r : ℕ) (hr : r < 32)
    (x0 : Vec Ideal S8192x1 .f32) (x1 : Vec Ideal S1x32 .f32)
    (hx0 : ∀ (p : Fin 8192) (k : Fin 1), x0 (ix2 p k) = X (ix2 (Cert.Spec.rowOf r hr p) k))
    (hx1 : ∀ (k : Fin 1) (q : Fin 32), x1 (ix2 k q) = Wt (ix2 k q))
    (y : S8192x32.Idx) (i : S262144x32.Idx) (hi0 : (i 0).val = r * 8192 + (y 0).val) (hi1 : (i 1).val = (y 1).val) :
    k0_pay2 x0 x1 y = Cert.Spec.mm (M := 262144) (K := 1) (N := 32) X Wt i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay2_apply, Cert.Spec.mm_ix2]
  exact Finset.sum_congr rfl fun k _ => by rw [hx0, hx1]

/-- The same for the second product. -/
theorem block_eq3 (X : FVec Ideal S262144x1 .f32) (Wt : FVec Ideal S1x32 .f32) (r : ℕ) (hr : r < 32)
    (x0 : Vec Ideal S8192x1 .f32) (x2 : Vec Ideal S1x32 .f32)
    (hx0 : ∀ (p : Fin 8192) (k : Fin 1), x0 (ix2 p k) = X (ix2 (Cert.Spec.rowOf r hr p) k))
    (hx2 : ∀ (k : Fin 1) (q : Fin 32), x2 (ix2 k q) = Wt (ix2 k q))
    (y : S8192x32.Idx) (i : S262144x32.Idx) (hi0 : (i 0).val = r * 8192 + (y 0).val) (hi1 : (i 1).val = (y 1).val) :
    k0_pay3 x0 x2 y = Cert.Spec.mm (M := 262144) (K := 1) (N := 32) X Wt i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay3_apply, Cert.Spec.mm_ix2]
  exact Finset.sum_congr rfl fun k _ => by rw [hx0, hx2]

/-- Point `t`'s block of the input is rows `8192 t …` of the input array as the region finds it. -/
theorem iblk0_apply (c : Dev nD) (t : Fin cfg0.N) (p : Fin 8192) (k : Fin 1) :
    (iblk0 V c 0 t : Vec Ideal S8192x1 .f32) (ix2 p k)
      = (V c main_arg0 : FVec Ideal S262144x1 .f32) (ix2 (Cert.Spec.rowOf t.val (ht t) p) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 8192 + 1 * p.val = t.val * 8192 + p.val; rw [e0]; omega
  | ⟨1, _⟩ => show win0_0.index t (1 : Fin 2) * 1 + 1 * k.val = k.val; rw [e1]; omega

/-- Every point's block of the first weight matrix is the whole matrix. -/
theorem iblk1_apply (c : Dev nD) (t : Fin cfg0.N) (k : Fin 1) (q : Fin 32) :
    (iblk0 V c 1 t : Vec Ideal S1x32 .f32) (ix2 k q) = (V c main_arg5 : FVec Ideal S1x32 .f32) (ix2 k q) := by
  obtain ⟨-, -, e2, e3, -⟩ := idx_facts t
  show V c main_arg5 (((cfg0.win 1).blk t).view.emb (ix2 k q)) = _
  refine congrArg (V c main_arg5) (funext fun a => Fin.ext ?_)
  match a with
  | ⟨0, _⟩ => show win0_1.index t (0 : Fin 2) * 1 + 1 * k.val = k.val; rw [e2]; omega
  | ⟨1, _⟩ => show win0_1.index t (1 : Fin 2) * 32 + 1 * q.val = q.val; rw [e3]; omega

/-- Every point's block of the second weight matrix is the whole matrix. -/
theorem iblk2_apply (c : Dev nD) (t : Fin cfg0.N) (k : Fin 1) (q : Fin 32) :
    (iblk0 V c 2 t : Vec Ideal S1x32 .f32) (ix2 k q) = (V c main_arg6 : FVec Ideal S1x32 .f32) (ix2 k q) := by
  obtain ⟨-, -, -, -, e4, e5, -⟩ := idx_facts t
  show V c main_arg6 (((cfg0.win 2).blk t).view.emb (ix2 k q)) = _
  refine congrArg (V c main_arg6) (funext fun a => Fin.ext ?_)
  match a with
  | ⟨0, _⟩ => show win0_2.index t (0 : Fin 2) * 1 + 1 * k.val = k.val; rw [e4]; omega
  | ⟨1, _⟩ => show win0_2.index t (1 : Fin 2) * 32 + 1 * q.val = q.val; rw [e5]; omega

/-- What point `t` writes back to the first output is block `t` of the whole product with the first matrix. -/
theorem flushed3_eq (c : Dev nD) (t : Fin cfg0.N) :
    (dat0 V c).flushed 3 t = ((cfg0.win 3).blk t).view.read (Elt Ideal)
      (Cert.Spec.mm (M := 262144) (K := 1) (N := 32) (V c main_arg0) (V c main_arg5)) := by
  show (cfg0.win 3).cut (grid0.coords t) ((dat0 V c).after 3 t) = _
  rw [after0_3]
  unfold out0_3
  rw [View.canon_unit_zero hz]
  simp only [View.ld_unit_zero (S := S8192x1) hz, View.ld_unit_zero (S := S1x32) hz]
  obtain ⟨-, -, -, -, -, -, e6, e7, -⟩ := idx_facts t
  funext j
  show k0_pay2 (iblk0 V c 0 t) (iblk0 V c 1 t) j = Cert.Spec.mm (M := 262144) (K := 1) (N := 32) (V c main_arg0) (V c main_arg5) (((cfg0.win 3).blk t).view.emb j)
  refine block_eq2 (V c main_arg0) (V c main_arg5) t.val (ht t)
    (iblk0 V c 0 t) (iblk0 V c 1 t) (fun p k => iblk0_apply V c t p k) (fun k q => iblk1_apply V c t k q) j
    (((cfg0.win 3).blk t).view.emb j) ?_ ?_
  · show win0_3.index t (0 : Fin 2) * 8192 + 1 * (j 0).val = t.val * 8192 + (j 0).val; rw [e6]; omega
  · show win0_3.index t (1 : Fin 2) * 32 + 1 * (j 1).val = (j 1).val; rw [e7]; omega

/-- What point `t` writes back to the second output is block `t` of the whole product with the second matrix. -/
theorem flushed4_eq (c : Dev nD) (t : Fin cfg0.N) :
    (dat0 V c).flushed 4 t = ((cfg0.win 4).blk t).view.read (Elt Ideal)
      (Cert.Spec.mm (M := 262144) (K := 1) (N := 32) (V c main_arg0) (V c main_arg6)) := by
  show (cfg0.win 4).cut (grid0.coords t) ((dat0 V c).after 4 t) = _
  rw [after0_4]
  unfold out0_4
  rw [View.canon_unit_zero hz]
  simp only [View.ld_unit_zero (S := S8192x1) hz, View.ld_unit_zero (S := S1x32) hz]
  obtain ⟨-, -, -, -, -, -, -, -, e8, e9⟩ := idx_facts t
  funext j
  show k0_pay3 (iblk0 V c 0 t) (iblk0 V c 2 t) j = Cert.Spec.mm (M := 262144) (K := 1) (N := 32) (V c main_arg0) (V c main_arg6) (((cfg0.win 4).blk t).view.emb j)
  refine block_eq3 (V c main_arg0) (V c main_arg6) t.val (ht t)
    (iblk0 V c 0 t) (iblk0 V c 2 t) (fun p k => iblk0_apply V c t p k) (fun k q => iblk2_apply V c t k q) j
    (((cfg0.win 4).blk t).view.emb j) ?_ ?_
  · show win0_4.index t (0 : Fin 2) * 8192 + 1 * (j 0).val = t.val * 8192 + (j 0).val; rw [e8]; omega
  · show win0_4.index t (1 : Fin 2) * 32 + 1 * (j 1).val = (j 1).val; rw [e9]; omega

/-- An index is in point `t`'s block of the first output iff each coordinate is in the block's range. -/
theorem mem_blk3 (t : Fin cfg0.N) (i : S262144x32.Idx) :
    i ∈ ((cfg0.win 3).blk t).view.set ↔ ∀ a : Fin 2, win0_3.index t a * S8192x32.size a ≤ (i a).val ∧ (i a).val < win0_3.index t a * S8192x32.size a + S8192x32.size a := by
  show i ∈ ((View.whole main_v0_0).slice (win0_3.rect t)).set ↔ _
  rw [View.set_slice_whole, Rect.mem_set_unit]
  exact Iff.rfl

theorem mem_blk4 (t : Fin cfg0.N) (i : S262144x32.Idx) :
    i ∈ ((cfg0.win 4).blk t).view.set ↔ ∀ a : Fin 2, win0_4.index t a * S8192x32.size a ≤ (i a).val ∧ (i a).val < win0_4.index t a * S8192x32.size a + S8192x32.size a := by
  show i ∈ ((View.whole main_v0_1).slice (win0_4.rect t)).set ↔ _
  rw [View.set_slice_whole, Rect.mem_set_unit]
  exact Iff.rfl

/-- The point whose block holds row `r` is `r / 8192`. -/
theorem cover3 (i : S262144x32.Idx) : ∃ t : Fin cfg0.N, (cfg0.win 3).flush t = true ∧ i ∈ ((cfg0.win 3).blk t).view.set := by
  have hi0 : (i 0).val < 262144 := (i 0).isLt
  have hi1 : (i 1).val < 32 := (i 1).isLt
  have ht : (i 0).val / 8192 < cfg0.N := by rw [hN]; omega
  obtain ⟨-, -, -, -, -, -, e6, e7, -⟩ := idx_facts ⟨(i 0).val / 8192, ht⟩
  refine ⟨⟨(i 0).val / 8192, ht⟩, flush0_3 _, ?_⟩
  rw [mem_blk3]
  intro a
  match a with
  | ⟨0, _⟩ =>
    show win0_3.index ⟨(i 0).val / 8192, ht⟩ (0 : Fin 2) * 8192 ≤ (i 0).val ∧ (i 0).val < win0_3.index ⟨(i 0).val / 8192, ht⟩ (0 : Fin 2) * 8192 + 8192
    rw [e6]; show (i 0).val / 8192 * 8192 ≤ (i 0).val ∧ (i 0).val < (i 0).val / 8192 * 8192 + 8192; omega
  | ⟨1, _⟩ =>
    show win0_3.index ⟨(i 0).val / 8192, ht⟩ (1 : Fin 2) * 32 ≤ (i 1).val ∧ (i 1).val < win0_3.index ⟨(i 0).val / 8192, ht⟩ (1 : Fin 2) * 32 + 32
    rw [e7]; omega

theorem cover4 (i : S262144x32.Idx) : ∃ t : Fin cfg0.N, (cfg0.win 4).flush t = true ∧ i ∈ ((cfg0.win 4).blk t).view.set := by
  have hi0 : (i 0).val < 262144 := (i 0).isLt
  have hi1 : (i 1).val < 32 := (i 1).isLt
  have ht : (i 0).val / 8192 < cfg0.N := by rw [hN]; omega
  obtain ⟨-, -, -, -, -, -, -, -, e8, e9⟩ := idx_facts ⟨(i 0).val / 8192, ht⟩
  refine ⟨⟨(i 0).val / 8192, ht⟩, flush0_4 _, ?_⟩
  rw [mem_blk4]
  intro a
  match a with
  | ⟨0, _⟩ =>
    show win0_4.index ⟨(i 0).val / 8192, ht⟩ (0 : Fin 2) * 8192 ≤ (i 0).val ∧ (i 0).val < win0_4.index ⟨(i 0).val / 8192, ht⟩ (0 : Fin 2) * 8192 + 8192
    rw [e8]; show (i 0).val / 8192 * 8192 ≤ (i 0).val ∧ (i 0).val < (i 0).val / 8192 * 8192 + 8192; omega
  | ⟨1, _⟩ =>
    show win0_4.index ⟨(i 0).val / 8192, ht⟩ (1 : Fin 2) * 32 ≤ (i 1).val ∧ (i 1).val < win0_4.index ⟨(i 0).val / 8192, ht⟩ (1 : Fin 2) * 32 + 32
    rw [e9]; omega

/-- After the region the first output array is the product of the input array with the first weight matrix. -/
theorem final3 (c : Dev nD) :
    (dat0 V c).arrAt 3 cfg0.N = Cert.Spec.mm (M := 262144) (K := 1) (N := 32) (V c main_arg0) (V c main_arg5) :=
  (dat0 V c).arrAt_eq_of_cover 3 _ (fun t _ => flushed3_eq V c t) cover3

/-- After the region the second output array is the product of the input array with the second weight matrix. -/
theorem final4 (c : Dev nD) :
    (dat0 V c).arrAt 4 cfg0.N = Cert.Spec.mm (M := 262144) (K := 1) (N := 32) (V c main_arg0) (V c main_arg6) :=
  (dat0 V c).arrAt_eq_of_cover 4 _ (fun t _ => flushed4_eq V c t) cover4

end Cert.KernelIdeal.Proj0

end
-- ==== Proof.Proj2.lean ====
/-
  The second layer's projection region. Its grid has 32 points; point `t` reads rows `8192 t … 8192 t + 8191` of the
  layer's input (a `262144 × 32` array) and two whole `32 × 32` weight matrices, multiplies the block by each matrix
  (rounding to bfloat16 first, which at the ideal values changes nothing) and writes the two products back as
  the same rows of its two output arrays. The row blocks tile the outputs, so after the region each output array is
  the matrix product of the whole input array with its weight matrix — for any contents of the buffers at entry.
-/
import proofs.«129428_j71330816852788_2_alg».proof.Proof.KernelIdealFrameP
import proofs.«129428_j71330816852788_2_alg».proof.Proof.Spec
import Idealize.ShloMosaic.Lib.Pipeline.Value

set_option maxRecDepth 16384

noncomputable section

namespace Cert.KernelIdeal.Proj2

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hN : cfg2.N = 32 := N_2

/-- A grid point is one of the 32 row blocks. -/
theorem ht (t : Fin cfg2.N) : t.val < 32 := by have := t.isLt; have h32 : cfg2.N = 32 := hN; omega

/-- The body's first product, entry by entry: the block times the first matrix. -/
theorem pay2_apply (x0 : Vec Ideal S8192x32 .f32) (x1 : Vec Ideal S32x32 .f32) (p : Fin 8192) (q : Fin 32) :
    k2_pay2 x0 x1 (ix2 p q) = ∑ k : Fin 32, x0 (ix2 p k) * x1 (ix2 k q) := by
  simp only [k2_pay2, k2_pay1, shapeCast_self]
  exact Cert.LibPlainMatmul.matmul_zero_apply dot_S8192x32_S32x32_S8192x32_1_0_0_1_n_n rfl rfl rfl rfl rfl rfl none _ _ p q

/-- The body's second product, entry by entry: the block times the second matrix. -/
theorem pay3_apply (x0 : Vec Ideal S8192x32 .f32) (x2 : Vec Ideal S32x32 .f32) (p : Fin 8192) (q : Fin 32) :
    k2_pay3 x0 x2 (ix2 p q) = ∑ k : Fin 32, x0 (ix2 p k) * x2 (ix2 k q) := by
  simp only [k2_pay3, k2_pay1, shapeCast_self]
  exact Cert.LibPlainMatmul.matmul_zero_apply dot_S8192x32_S32x32_S8192x32_1_0_0_1_n_n rfl rfl rfl rfl rfl rfl none _ _ p q

/-- The printed index maps over the grid: the input and both outputs move down one row block per point, the weight
    matrices stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A block product is the rows of the whole product: if `x0` is rows `8192 r …` of `X` and `x1` is `Wt`, then the
    product of `x0` and `x1` at `y` is the product of `X` and `Wt` at row `8192 r + y₀`, column `y₁`. -/
theorem block_eq2 (X : FVec Ideal S262144x32 .f32) (Wt : FVec Ideal S32x32 .f32) (r : ℕ) (hr : r < 32)
    (x0 : Vec Ideal S8192x32 .f32) (x1 : Vec Ideal S32x32 .f32)
    (hx0 : ∀ (p : Fin 8192) (k : Fin 32), x0 (ix2 p k) = X (ix2 (Cert.Spec.rowOf r hr p) k))
    (hx1 : ∀ (k q : Fin 32), x1 (ix2 k q) = Wt (ix2 k q))
    (y : S8192x32.Idx) (i : S262144x32.Idx) (hi0 : (i 0).val = r * 8192 + (y 0).val) (hi1 : (i 1).val = (y 1).val) :
    k2_pay2 x0 x1 y = Cert.Spec.mm (M := 262144) (K := 32) (N := 32) X Wt i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay2_apply, Cert.Spec.mm_ix2]
  exact Finset.sum_congr rfl fun k _ => by rw [hx0, hx1]

/-- The same for the second product. -/
theorem block_eq3 (X : FVec Ideal S262144x32 .f32) (Wt : FVec Ideal S32x32 .f32) (r : ℕ) (hr : r < 32)
    (x0 : Vec Ideal S8192x32 .f32) (x2 : Vec Ideal S32x32 .f32)
    (hx0 : ∀ (p : Fin 8192) (k : Fin 32), x0 (ix2 p k) = X (ix2 (Cert.Spec.rowOf r hr p) k))
    (hx2 : ∀ (k q : Fin 32), x2 (ix2 k q) = Wt (ix2 k q))
    (y : S8192x32.Idx) (i : S262144x32.Idx) (hi0 : (i 0).val = r * 8192 + (y 0).val) (hi1 : (i 1).val = (y 1).val) :
    k2_pay3 x0 x2 y = Cert.Spec.mm (M := 262144) (K := 32) (N := 32) X Wt i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay3_apply, Cert.Spec.mm_ix2]
  exact Finset.sum_congr rfl fun k _ => by rw [hx0, hx2]

/-- Point `t`'s block of the input is rows `8192 t …` of the input array as the region finds it. -/
theorem iblk0_apply (c : Dev nD) (t : Fin cfg2.N) (p : Fin 8192) (k : Fin 32) :
    (iblk2 V c 0 t : Vec Ideal S8192x32 .f32) (ix2 p k)
      = (V c main_v14 : FVec Ideal S262144x32 .f32) (ix2 (Cert.Spec.rowOf t.val (ht t) p) k) := by
  obtain ⟨e0, e1, -⟩ := idx_facts t
  show V c main_v14 (((cfg2.win 0).blk t).view.emb (ix2 p k)) = _
  refine congrArg (V c main_v14) (funext fun a => Fin.ext ?_)
  match a with
  | ⟨0, _⟩ => show win2_0.index t (0 : Fin 2) * 8192 + 1 * p.val = t.val * 8192 + p.val; rw [e0]; omega
  | ⟨1, _⟩ => show win2_0.index t (1 : Fin 2) * 32 + 1 * k.val = k.val; rw [e1]; omega

/-- Every point's block of the first weight matrix is the whole matrix. -/
theorem iblk1_apply (c : Dev nD) (t : Fin cfg2.N) (k q : Fin 32) :
    (iblk2 V c 1 t : Vec Ideal S32x32 .f32) (ix2 k q) = (V c main_arg8 : FVec Ideal S32x32 .f32) (ix2 k q) := by
  obtain ⟨-, -, e2, e3, -⟩ := idx_facts t
  show V c main_arg8 (((cfg2.win 1).blk t).view.emb (ix2 k q)) = _
  refine congrArg (V c main_arg8) (funext fun a => Fin.ext ?_)
  match a with
  | ⟨0, _⟩ => show win2_1.index t (0 : Fin 2) * 32 + 1 * k.val = k.val; rw [e2]; omega
  | ⟨1, _⟩ => show win2_1.index t (1 : Fin 2) * 32 + 1 * q.val = q.val; rw [e3]; omega

/-- Every point's block of the second weight matrix is the whole matrix. -/
theorem iblk2_apply (c : Dev nD) (t : Fin cfg2.N) (k q : Fin 32) :
    (iblk2 V c 2 t : Vec Ideal S32x32 .f32) (ix2 k q) = (V c main_arg9 : FVec Ideal S32x32 .f32) (ix2 k q) := by
  obtain ⟨-, -, -, -, e4, e5, -⟩ := idx_facts t
  show V c main_arg9 (((cfg2.win 2).blk t).view.emb (ix2 k q)) = _
  refine congrArg (V c main_arg9) (funext fun a => Fin.ext ?_)
  match a with
  | ⟨0, _⟩ => show win2_2.index t (0 : Fin 2) * 32 + 1 * k.val = k.val; rw [e4]; omega
  | ⟨1, _⟩ => show win2_2.index t (1 : Fin 2) * 32 + 1 * q.val = q.val; rw [e5]; omega

/-- What point `t` writes back to the first output is block `t` of the whole product with the first matrix. -/
theorem flushed3_eq (c : Dev nD) (t : Fin cfg2.N) :
    (dat2 V c).flushed 3 t = ((cfg2.win 3).blk t).view.read (Elt Ideal)
      (Cert.Spec.mm (M := 262144) (K := 32) (N := 32) (V c main_v14) (V c main_arg8)) := by
  show (cfg2.win 3).cut (grid2.coords t) ((dat2 V c).after 3 t) = _
  rw [after2_3]
  unfold out2_3
  rw [View.canon_unit_zero hz]
  simp only [View.ld_unit_zero (S := S8192x32) hz, View.ld_unit_zero (S := S32x32) hz]
  obtain ⟨-, -, -, -, -, -, e6, e7, -⟩ := idx_facts t
  funext j
  show k2_pay2 (iblk2 V c 0 t) (iblk2 V c 1 t) j = Cert.Spec.mm (M := 262144) (K := 32) (N := 32) (V c main_v14) (V c main_arg8) (((cfg2.win 3).blk t).view.emb j)
  refine block_eq2 (V c main_v14) (V c main_arg8) t.val (ht t)
    (iblk2 V c 0 t) (iblk2 V c 1 t) (fun p k => iblk0_apply V c t p k) (fun k q => iblk1_apply V c t k q) j
    (((cfg2.win 3).blk t).view.emb j) ?_ ?_
  · show win2_3.index t (0 : Fin 2) * 8192 + 1 * (j 0).val = t.val * 8192 + (j 0).val; rw [e6]; omega
  · show win2_3.index t (1 : Fin 2) * 32 + 1 * (j 1).val = (j 1).val; rw [e7]; omega

/-- What point `t` writes back to the second output is block `t` of the whole product with the second matrix. -/
theorem flushed4_eq (c : Dev nD) (t : Fin cfg2.N) :
    (dat2 V c).flushed 4 t = ((cfg2.win 4).blk t).view.read (Elt Ideal)
      (Cert.Spec.mm (M := 262144) (K := 32) (N := 32) (V c main_v14) (V c main_arg9)) := by
  show (cfg2.win 4).cut (grid2.coords t) ((dat2 V c).after 4 t) = _
  rw [after2_4]
  unfold out2_4
  rw [View.canon_unit_zero hz]
  simp only [View.ld_unit_zero (S := S8192x32) hz, View.ld_unit_zero (S := S32x32) hz]
  obtain ⟨-, -, -, -, -, -, -, -, e8, e9⟩ := idx_facts t
  funext j
  show k2_pay3 (iblk2 V c 0 t) (iblk2 V c 2 t) j = Cert.Spec.mm (M := 262144) (K := 32) (N := 32) (V c main_v14) (V c main_arg9) (((cfg2.win 4).blk t).view.emb j)
  refine block_eq3 (V c main_v14) (V c main_arg9) t.val (ht t)
    (iblk2 V c 0 t) (iblk2 V c 2 t) (fun p k => iblk0_apply V c t p k) (fun k q => iblk2_apply V c t k q) j
    (((cfg2.win 4).blk t).view.emb j) ?_ ?_
  · show win2_4.index t (0 : Fin 2) * 8192 + 1 * (j 0).val = t.val * 8192 + (j 0).val; rw [e8]; omega
  · show win2_4.index t (1 : Fin 2) * 32 + 1 * (j 1).val = (j 1).val; rw [e9]; omega

/-- An index is in point `t`'s block of the first output iff each coordinate is in the block's range. -/
theorem mem_blk3 (t : Fin cfg2.N) (i : S262144x32.Idx) :
    i ∈ ((cfg2.win 3).blk t).view.set ↔ ∀ a : Fin 2, win2_3.index t a * S8192x32.size a ≤ (i a).val ∧ (i a).val < win2_3.index t a * S8192x32.size a + S8192x32.size a := by
  show i ∈ ((View.whole main_v15_0).slice (win2_3.rect t)).set ↔ _
  rw [View.set_slice_whole, Rect.mem_set_unit]
  exact Iff.rfl

theorem mem_blk4 (t : Fin cfg2.N) (i : S262144x32.Idx) :
    i ∈ ((cfg2.win 4).blk t).view.set ↔ ∀ a : Fin 2, win2_4.index t a * S8192x32.size a ≤ (i a).val ∧ (i a).val < win2_4.index t a * S8192x32.size a + S8192x32.size a := by
  show i ∈ ((View.whole main_v15_1).slice (win2_4.rect t)).set ↔ _
  rw [View.set_slice_whole, Rect.mem_set_unit]
  exact Iff.rfl

/-- The point whose block holds row `r` is `r / 8192`. -/
theorem cover3 (i : S262144x32.Idx) : ∃ t : Fin cfg2.N, (cfg2.win 3).flush t = true ∧ i ∈ ((cfg2.win 3).blk t).view.set := by
  have hi0 : (i 0).val < 262144 := (i 0).isLt
  have hi1 : (i 1).val < 32 := (i 1).isLt
  have ht : (i 0).val / 8192 < cfg2.N := by rw [hN]; omega
  obtain ⟨-, -, -, -, -, -, e6, e7, -⟩ := idx_facts ⟨(i 0).val / 8192, ht⟩
  refine ⟨⟨(i 0).val / 8192, ht⟩, flush2_3 _, ?_⟩
  rw [mem_blk3]
  intro a
  match a with
  | ⟨0, _⟩ =>
    show win2_3.index ⟨(i 0).val / 8192, ht⟩ (0 : Fin 2) * 8192 ≤ (i 0).val ∧ (i 0).val < win2_3.index ⟨(i 0).val / 8192, ht⟩ (0 : Fin 2) * 8192 + 8192
    rw [e6]; show (i 0).val / 8192 * 8192 ≤ (i 0).val ∧ (i 0).val < (i 0).val / 8192 * 8192 + 8192; omega
  | ⟨1, _⟩ =>
    show win2_3.index ⟨(i 0).val / 8192, ht⟩ (1 : Fin 2) * 32 ≤ (i 1).val ∧ (i 1).val < win2_3.index ⟨(i 0).val / 8192, ht⟩ (1 : Fin 2) * 32 + 32
    rw [e7]; omega

theorem cover4 (i : S262144x32.Idx) : ∃ t : Fin cfg2.N, (cfg2.win 4).flush t = true ∧ i ∈ ((cfg2.win 4).blk t).view.set := by
  have hi0 : (i 0).val < 262144 := (i 0).isLt
  have hi1 : (i 1).val < 32 := (i 1).isLt
  have ht : (i 0).val / 8192 < cfg2.N := by rw [hN]; omega
  obtain ⟨-, -, -, -, -, -, -, -, e8, e9⟩ := idx_facts ⟨(i 0).val / 8192, ht⟩
  refine ⟨⟨(i 0).val / 8192, ht⟩, flush2_4 _, ?_⟩
  rw [mem_blk4]
  intro a
  match a with
  | ⟨0, _⟩ =>
    show win2_4.index ⟨(i 0).val / 8192, ht⟩ (0 : Fin 2) * 8192 ≤ (i 0).val ∧ (i 0).val < win2_4.index ⟨(i 0).val / 8192, ht⟩ (0 : Fin 2) * 8192 + 8192
    rw [e8]; show (i 0).val / 8192 * 8192 ≤ (i 0).val ∧ (i 0).val < (i 0).val / 8192 * 8192 + 8192; omega
  | ⟨1, _⟩ =>
    show win2_4.index ⟨(i 0).val / 8192, ht⟩ (1 : Fin 2) * 32 ≤ (i 1).val ∧ (i 1).val < win2_4.index ⟨(i 0).val / 8192, ht⟩ (1 : Fin 2) * 32 + 32
    rw [e9]; omega

/-- After the region the first output array is the product of the input array with the first weight matrix. -/
theorem final3 (c : Dev nD) :
    (dat2 V c).arrAt 3 cfg2.N = Cert.Spec.mm (M := 262144) (K := 32) (N := 32) (V c main_v14) (V c main_arg8) :=
  (dat2 V c).arrAt_eq_of_cover 3 _ (fun t _ => flushed3_eq V c t) cover3

/-- After the region the second output array is the product of the input array with the second weight matrix. -/
theorem final4 (c : Dev nD) :
    (dat2 V c).arrAt 4 cfg2.N = Cert.Spec.mm (M := 262144) (K := 32) (N := 32) (V c main_v14) (V c main_arg9) :=
  (dat2 V c).arrAt_eq_of_cover 4 _ (fun t _ => flushed4_eq V c t) cover4

end Cert.KernelIdeal.Proj2

end
-- ==== Proof.Proj4.lean ====
/-
  The third layer's projection region. Its grid has 32 points; point `t` reads rows `8192 t … 8192 t + 8191` of the
  layer's input (a `262144 × 32` array) and two whole `32 × 32` weight matrices, multiplies the block by each matrix
  (rounding to bfloat16 first, which at the ideal values changes nothing) and writes the two products back as
  the same rows of its two output arrays. The row blocks tile the outputs, so after the region each output array is
  the matrix product of the whole input array with its weight matrix — for any contents of the buffers at entry.
-/
import proofs.«129428_j71330816852788_2_alg».proof.Proof.KernelIdealFrameP
import proofs.«129428_j71330816852788_2_alg».proof.Proof.Spec
import Idealize.ShloMosaic.Lib.Pipeline.Value

set_option maxRecDepth 16384

noncomputable section

namespace Cert.KernelIdeal.Proj4

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hN : cfg4.N = 32 := N_4

/-- A grid point is one of the 32 row blocks. -/
theorem ht (t : Fin cfg4.N) : t.val < 32 := by have := t.isLt; have h32 : cfg4.N = 32 := hN; omega

/-- The body's first product, entry by entry: the block times the first matrix. -/
theorem pay2_apply (x0 : Vec Ideal S8192x32 .f32) (x1 : Vec Ideal S32x32 .f32) (p : Fin 8192) (q : Fin 32) :
    k4_pay2 x0 x1 (ix2 p q) = ∑ k : Fin 32, x0 (ix2 p k) * x1 (ix2 k q) := by
  simp only [k4_pay2, k4_pay1, shapeCast_self]
  exact Cert.LibPlainMatmul.matmul_zero_apply dot_S8192x32_S32x32_S8192x32_1_0_0_1_n_n rfl rfl rfl rfl rfl rfl none _ _ p q

/-- The body's second product, entry by entry: the block times the second matrix. -/
theorem pay3_apply (x0 : Vec Ideal S8192x32 .f32) (x2 : Vec Ideal S32x32 .f32) (p : Fin 8192) (q : Fin 32) :
    k4_pay3 x0 x2 (ix2 p q) = ∑ k : Fin 32, x0 (ix2 p k) * x2 (ix2 k q) := by
  simp only [k4_pay3, k4_pay1, shapeCast_self]
  exact Cert.LibPlainMatmul.matmul_zero_apply dot_S8192x32_S32x32_S8192x32_1_0_0_1_n_n rfl rfl rfl rfl rfl rfl none _ _ p q

/-- The printed index maps over the grid: the input and both outputs move down one row block per point, the weight
    matrices stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- A block product is the rows of the whole product: if `x0` is rows `8192 r …` of `X` and `x1` is `Wt`, then the
    product of `x0` and `x1` at `y` is the product of `X` and `Wt` at row `8192 r + y₀`, column `y₁`. -/
theorem block_eq2 (X : FVec Ideal S262144x32 .f32) (Wt : FVec Ideal S32x32 .f32) (r : ℕ) (hr : r < 32)
    (x0 : Vec Ideal S8192x32 .f32) (x1 : Vec Ideal S32x32 .f32)
    (hx0 : ∀ (p : Fin 8192) (k : Fin 32), x0 (ix2 p k) = X (ix2 (Cert.Spec.rowOf r hr p) k))
    (hx1 : ∀ (k q : Fin 32), x1 (ix2 k q) = Wt (ix2 k q))
    (y : S8192x32.Idx) (i : S262144x32.Idx) (hi0 : (i 0).val = r * 8192 + (y 0).val) (hi1 : (i 1).val = (y 1).val) :
    k4_pay2 x0 x1 y = Cert.Spec.mm (M := 262144) (K := 32) (N := 32) X Wt i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay2_apply, Cert.Spec.mm_ix2]
  exact Finset.sum_congr rfl fun k _ => by rw [hx0, hx1]

/-- The same for the second product. -/
theorem block_eq3 (X : FVec Ideal S262144x32 .f32) (Wt : FVec Ideal S32x32 .f32) (r : ℕ) (hr : r < 32)
    (x0 : Vec Ideal S8192x32 .f32) (x2 : Vec Ideal S32x32 .f32)
    (hx0 : ∀ (p : Fin 8192) (k : Fin 32), x0 (ix2 p k) = X (ix2 (Cert.Spec.rowOf r hr p) k))
    (hx2 : ∀ (k q : Fin 32), x2 (ix2 k q) = Wt (ix2 k q))
    (y : S8192x32.Idx) (i : S262144x32.Idx) (hi0 : (i 0).val = r * 8192 + (y 0).val) (hi1 : (i 1).val = (y 1).val) :
    k4_pay3 x0 x2 y = Cert.Spec.mm (M := 262144) (K := 32) (N := 32) X Wt i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay3_apply, Cert.Spec.mm_ix2]
  exact Finset.sum_congr rfl fun k _ => by rw [hx0, hx2]

/-- Point `t`'s block of the input is rows `8192 t …` of the input array as the region finds it. -/
theorem iblk0_apply (c : Dev nD) (t : Fin cfg4.N) (p : Fin 8192) (k : Fin 32) :
    (iblk4 V c 0 t : Vec Ideal S8192x32 .f32) (ix2 p k)
      = (V c main_v29 : FVec Ideal S262144x32 .f32) (ix2 (Cert.Spec.rowOf t.val (ht t) p) k) := by
  obtain ⟨e0, e1, -⟩ := idx_facts t
  show V c main_v29 (((cfg4.win 0).blk t).view.emb (ix2 p k)) = _
  refine congrArg (V c main_v29) (funext fun a => Fin.ext ?_)
  match a with
  | ⟨0, _⟩ => show win4_0.index t (0 : Fin 2) * 8192 + 1 * p.val = t.val * 8192 + p.val; rw [e0]; omega
  | ⟨1, _⟩ => show win4_0.index t (1 : Fin 2) * 32 + 1 * k.val = k.val; rw [e1]; omega

/-- Every point's block of the first weight matrix is the whole matrix. -/
theorem iblk1_apply (c : Dev nD) (t : Fin cfg4.N) (k q : Fin 32) :
    (iblk4 V c 1 t : Vec Ideal S32x32 .f32) (ix2 k q) = (V c main_arg11 : FVec Ideal S32x32 .f32) (ix2 k q) := by
  obtain ⟨-, -, e2, e3, -⟩ := idx_facts t
  show V c main_arg11 (((cfg4.win 1).blk t).view.emb (ix2 k q)) = _
  refine congrArg (V c main_arg11) (funext fun a => Fin.ext ?_)
  match a with
  | ⟨0, _⟩ => show win4_1.index t (0 : Fin 2) * 32 + 1 * k.val = k.val; rw [e2]; omega
  | ⟨1, _⟩ => show win4_1.index t (1 : Fin 2) * 32 + 1 * q.val = q.val; rw [e3]; omega

/-- Every point's block of the second weight matrix is the whole matrix. -/
theorem iblk2_apply (c : Dev nD) (t : Fin cfg4.N) (k q : Fin 32) :
    (iblk4 V c 2 t : Vec Ideal S32x32 .f32) (ix2 k q) = (V c main_arg12 : FVec Ideal S32x32 .f32) (ix2 k q) := by
  obtain ⟨-, -, -, -, e4, e5, -⟩ := idx_facts t
  show V c main_arg12 (((cfg4.win 2).blk t).view.emb (ix2 k q)) = _
  refine congrArg (V c main_arg12) (funext fun a => Fin.ext ?_)
  match a with
  | ⟨0, _⟩ => show win4_2.index t (0 : Fin 2) * 32 + 1 * k.val = k.val; rw [e4]; omega
  | ⟨1, _⟩ => show win4_2.index t (1 : Fin 2) * 32 + 1 * q.val = q.val; rw [e5]; omega

/-- What point `t` writes back to the first output is block `t` of the whole product with the first matrix. -/
theorem flushed3_eq (c : Dev nD) (t : Fin cfg4.N) :
    (dat4 V c).flushed 3 t = ((cfg4.win 3).blk t).view.read (Elt Ideal)
      (Cert.Spec.mm (M := 262144) (K := 32) (N := 32) (V c main_v29) (V c main_arg11)) := by
  show (cfg4.win 3).cut (grid4.coords t) ((dat4 V c).after 3 t) = _
  rw [after4_3]
  unfold out4_3
  rw [View.canon_unit_zero hz]
  simp only [View.ld_unit_zero (S := S8192x32) hz, View.ld_unit_zero (S := S32x32) hz]
  obtain ⟨-, -, -, -, -, -, e6, e7, -⟩ := idx_facts t
  funext j
  show k4_pay2 (iblk4 V c 0 t) (iblk4 V c 1 t) j = Cert.Spec.mm (M := 262144) (K := 32) (N := 32) (V c main_v29) (V c main_arg11) (((cfg4.win 3).blk t).view.emb j)
  refine block_eq2 (V c main_v29) (V c main_arg11) t.val (ht t)
    (iblk4 V c 0 t) (iblk4 V c 1 t) (fun p k => iblk0_apply V c t p k) (fun k q => iblk1_apply V c t k q) j
    (((cfg4.win 3).blk t).view.emb j) ?_ ?_
  · show win4_3.index t (0 : Fin 2) * 8192 + 1 * (j 0).val = t.val * 8192 + (j 0).val; rw [e6]; omega
  · show win4_3.index t (1 : Fin 2) * 32 + 1 * (j 1).val = (j 1).val; rw [e7]; omega

/-- What point `t` writes back to the second output is block `t` of the whole product with the second matrix. -/
theorem flushed4_eq (c : Dev nD) (t : Fin cfg4.N) :
    (dat4 V c).flushed 4 t = ((cfg4.win 4).blk t).view.read (Elt Ideal)
      (Cert.Spec.mm (M := 262144) (K := 32) (N := 32) (V c main_v29) (V c main_arg12)) := by
  show (cfg4.win 4).cut (grid4.coords t) ((dat4 V c).after 4 t) = _
  rw [after4_4]
  unfold out4_4
  rw [View.canon_unit_zero hz]
  simp only [View.ld_unit_zero (S := S8192x32) hz, View.ld_unit_zero (S := S32x32) hz]
  obtain ⟨-, -, -, -, -, -, -, -, e8, e9⟩ := idx_facts t
  funext j
  show k4_pay3 (iblk4 V c 0 t) (iblk4 V c 2 t) j = Cert.Spec.mm (M := 262144) (K := 32) (N := 32) (V c main_v29) (V c main_arg12) (((cfg4.win 4).blk t).view.emb j)
  refine block_eq3 (V c main_v29) (V c main_arg12) t.val (ht t)
    (iblk4 V c 0 t) (iblk4 V c 2 t) (fun p k => iblk0_apply V c t p k) (fun k q => iblk2_apply V c t k q) j
    (((cfg4.win 4).blk t).view.emb j) ?_ ?_
  · show win4_4.index t (0 : Fin 2) * 8192 + 1 * (j 0).val = t.val * 8192 + (j 0).val; rw [e8]; omega
  · show win4_4.index t (1 : Fin 2) * 32 + 1 * (j 1).val = (j 1).val; rw [e9]; omega

/-- An index is in point `t`'s block of the first output iff each coordinate is in the block's range. -/
theorem mem_blk3 (t : Fin cfg4.N) (i : S262144x32.Idx) :
    i ∈ ((cfg4.win 3).blk t).view.set ↔ ∀ a : Fin 2, win4_3.index t a * S8192x32.size a ≤ (i a).val ∧ (i a).val < win4_3.index t a * S8192x32.size a + S8192x32.size a := by
  show i ∈ ((View.whole main_v30_0).slice (win4_3.rect t)).set ↔ _
  rw [View.set_slice_whole, Rect.mem_set_unit]
  exact Iff.rfl

theorem mem_blk4 (t : Fin cfg4.N) (i : S262144x32.Idx) :
    i ∈ ((cfg4.win 4).blk t).view.set ↔ ∀ a : Fin 2, win4_4.index t a * S8192x32.size a ≤ (i a).val ∧ (i a).val < win4_4.index t a * S8192x32.size a + S8192x32.size a := by
  show i ∈ ((View.whole main_v30_1).slice (win4_4.rect t)).set ↔ _
  rw [View.set_slice_whole, Rect.mem_set_unit]
  exact Iff.rfl

/-- The point whose block holds row `r` is `r / 8192`. -/
theorem cover3 (i : S262144x32.Idx) : ∃ t : Fin cfg4.N, (cfg4.win 3).flush t = true ∧ i ∈ ((cfg4.win 3).blk t).view.set := by
  have hi0 : (i 0).val < 262144 := (i 0).isLt
  have hi1 : (i 1).val < 32 := (i 1).isLt
  have ht : (i 0).val / 8192 < cfg4.N := by rw [hN]; omega
  obtain ⟨-, -, -, -, -, -, e6, e7, -⟩ := idx_facts ⟨(i 0).val / 8192, ht⟩
  refine ⟨⟨(i 0).val / 8192, ht⟩, flush4_3 _, ?_⟩
  rw [mem_blk3]
  intro a
  match a with
  | ⟨0, _⟩ =>
    show win4_3.index ⟨(i 0).val / 8192, ht⟩ (0 : Fin 2) * 8192 ≤ (i 0).val ∧ (i 0).val < win4_3.index ⟨(i 0).val / 8192, ht⟩ (0 : Fin 2) * 8192 + 8192
    rw [e6]; show (i 0).val / 8192 * 8192 ≤ (i 0).val ∧ (i 0).val < (i 0).val / 8192 * 8192 + 8192; omega
  | ⟨1, _⟩ =>
    show win4_3.index ⟨(i 0).val / 8192, ht⟩ (1 : Fin 2) * 32 ≤ (i 1).val ∧ (i 1).val < win4_3.index ⟨(i 0).val / 8192, ht⟩ (1 : Fin 2) * 32 + 32
    rw [e7]; omega

theorem cover4 (i : S262144x32.Idx) : ∃ t : Fin cfg4.N, (cfg4.win 4).flush t = true ∧ i ∈ ((cfg4.win 4).blk t).view.set := by
  have hi0 : (i 0).val < 262144 := (i 0).isLt
  have hi1 : (i 1).val < 32 := (i 1).isLt
  have ht : (i 0).val / 8192 < cfg4.N := by rw [hN]; omega
  obtain ⟨-, -, -, -, -, -, -, -, e8, e9⟩ := idx_facts ⟨(i 0).val / 8192, ht⟩
  refine ⟨⟨(i 0).val / 8192, ht⟩, flush4_4 _, ?_⟩
  rw [mem_blk4]
  intro a
  match a with
  | ⟨0, _⟩ =>
    show win4_4.index ⟨(i 0).val / 8192, ht⟩ (0 : Fin 2) * 8192 ≤ (i 0).val ∧ (i 0).val < win4_4.index ⟨(i 0).val / 8192, ht⟩ (0 : Fin 2) * 8192 + 8192
    rw [e8]; show (i 0).val / 8192 * 8192 ≤ (i 0).val ∧ (i 0).val < (i 0).val / 8192 * 8192 + 8192; omega
  | ⟨1, _⟩ =>
    show win4_4.index ⟨(i 0).val / 8192, ht⟩ (1 : Fin 2) * 32 ≤ (i 1).val ∧ (i 1).val < win4_4.index ⟨(i 0).val / 8192, ht⟩ (1 : Fin 2) * 32 + 32
    rw [e9]; omega

/-- After the region the first output array is the product of the input array with the first weight matrix. -/
theorem final3 (c : Dev nD) :
    (dat4 V c).arrAt 3 cfg4.N = Cert.Spec.mm (M := 262144) (K := 32) (N := 32) (V c main_v29) (V c main_arg11) :=
  (dat4 V c).arrAt_eq_of_cover 3 _ (fun t _ => flushed3_eq V c t) cover3

/-- After the region the second output array is the product of the input array with the second weight matrix. -/
theorem final4 (c : Dev nD) :
    (dat4 V c).arrAt 4 cfg4.N = Cert.Spec.mm (M := 262144) (K := 32) (N := 32) (V c main_v29) (V c main_arg12) :=
  (dat4 V c).arrAt_eq_of_cover 4 _ (fun t _ => flushed4_eq V c t) cover4

end Cert.KernelIdeal.Proj4

end
-- ==== Proof.Comb1.lean ====
/-
  The first layer's combine region. Its grid has 32 points; point `t` reads rows `8192 t … 8192 t + 8191` of the
  neighbourhood sums and of the self term (two `262144 × 32` arrays) and the whole bias row (32 entries), adds the two
  blocks, adds the bias to every row, takes the positive part, and writes the block back as the same rows of its
  output. The row blocks tile the output, so after the region the output array is, entry by entry, the larger of zero
  and (sum + self term) + bias — for any contents of the buffers at entry.
-/
import proofs.«129428_j71330816852788_2_alg».proof.Proof.KernelIdealFrameP
import proofs.«129428_j71330816852788_2_alg».proof.Proof.Spec
import Idealize.ShloMosaic.Lib.Pipeline.Value
import Idealize.ShloMosaic.Lib.ValueLayout

set_option maxRecDepth 16384

noncomputable section

namespace Cert.KernelIdeal.Comb1

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

theorem hN : cfg1.N = 32 := N_1

/-- A grid point is one of the 32 row blocks. -/
theorem ht (t : Fin cfg1.N) : t.val < 32 := by have := t.isLt; have h32 : cfg1.N = 32 := hN; omega

/-- The body's arithmetic, entry by entry: the two blocks added, the bias row added to every row, the positive part. -/
theorem pay1_apply (x0 x1 : Vec Ideal S8192x32 .f32) (x2 : Vec Ideal S32 .f32) (p : Fin 8192) (q : Fin 32) :
    k1_pay1 x0 x1 x2 (ix2 p q)
      = max ((x0 (ix2 p q) + x1 (ix2 p q)) + x2 (ix1 q)) (Ideal.ofBits .f32 0x00000000#32) := by
  simp only [k1_pay1, shapeCast_self]
  rw [maximumf_apply, addf_apply, addf_apply, broadcast_apply, broadcastTo_1b_ab_apply, shapeCast_a_1a_apply]
  rfl

/-- The printed index maps over the grid: the two inputs and the output move down one row block per point, the bias
    stays at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- A block's result is the rows of the whole result: if `x0`, `x1` are rows `8192 r …` of `A`, `B` and `x2` is the bias,
    the body's value at `y` is the layer's last step of `A`, `B`, the bias at row `8192 r + y₀`, column `y₁`. -/
theorem block_eq (A B : FVec Ideal S262144x32 .f32) (bias : FVec Ideal S32 .f32) (r : ℕ) (hr : r < 32)
    (x0 x1 : Vec Ideal S8192x32 .f32) (x2 : Vec Ideal S32 .f32)
    (hx0 : ∀ (p : Fin 8192) (q : Fin 32), x0 (ix2 p q) = A (ix2 (Cert.Spec.rowOf r hr p) q))
    (hx1 : ∀ (p : Fin 8192) (q : Fin 32), x1 (ix2 p q) = B (ix2 (Cert.Spec.rowOf r hr p) q))
    (hx2 : ∀ q : Fin 32, x2 (ix1 q) = bias (ix1 q))
    (y : S8192x32.Idx) (i : S262144x32.Idx) (hi0 : (i 0).val = r * 8192 + (y 0).val) (hi1 : (i 1).val = (y 1).val) :
    k1_pay1 x0 x1 x2 y = Cert.Spec.comb (M := 262144) (N := 32) A B bias i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay1_apply, Cert.Spec.comb_ix2, hx0, hx1, hx2]

/-- Point `t`'s block of the neighbourhood sums is rows `8192 t …` of that array as the region finds it. -/
theorem iblk0_apply (c : Dev nD) (t : Fin cfg1.N) (p : Fin 8192) (q : Fin 32) :
    (iblk1 V c 0 t : Vec Ideal S8192x32 .f32) (ix2 p q)
      = (V c main_v13 : FVec Ideal S262144x32 .f32) (ix2 (Cert.Spec.rowOf t.val (ht t) p) q) := by
  obtain ⟨e0, e1, -⟩ := idx_facts t
  show V c main_v13 (((cfg1.win 0).blk t).view.emb (ix2 p q)) = _
  refine congrArg (V c main_v13) (funext fun a => Fin.ext ?_)
  match a with
  | ⟨0, _⟩ => show win1_0.index t (0 : Fin 2) * 8192 + 1 * p.val = t.val * 8192 + p.val; rw [e0]; omega
  | ⟨1, _⟩ => show win1_0.index t (1 : Fin 2) * 32 + 1 * q.val = q.val; rw [e1]; omega

/-- Point `t`'s block of the self term is rows `8192 t …` of that array as the region finds it. -/
theorem iblk1_apply (c : Dev nD) (t : Fin cfg1.N) (p : Fin 8192) (q : Fin 32) :
    (iblk1 V c 1 t : Vec Ideal S8192x32 .f32) (ix2 p q)
      = (V c main_v0_1 : FVec Ideal S262144x32 .f32) (ix2 (Cert.Spec.rowOf t.val (ht t) p) q) := by
  obtain ⟨-, -, e2, e3, -⟩ := idx_facts t
  show V c main_v0_1 (((cfg1.win 1).blk t).view.emb (ix2 p q)) = _
  refine congrArg (V c main_v0_1) (funext fun a => Fin.ext ?_)
  match a with
  | ⟨0, _⟩ => show win1_1.index t (0 : Fin 2) * 8192 + 1 * p.val = t.val * 8192 + p.val; rw [e2]; omega
  | ⟨1, _⟩ => show win1_1.index t (1 : Fin 2) * 32 + 1 * q.val = q.val; rw [e3]; omega

/-- Every point's block of the bias is the whole bias row. -/
theorem iblk2_apply (c : Dev nD) (t : Fin cfg1.N) (q : Fin 32) :
    (iblk1 V c 2 t : Vec Ideal S32 .f32) (ix1 q) = (V c main_arg7 : FVec Ideal S32 .f32) (ix1 q) := by
  obtain ⟨-, -, -, -, e4, -⟩ := idx_facts t
  show V c main_arg7 (((cfg1.win 2).blk t).view.emb (ix1 q)) = _
  refine congrArg (V c main_arg7) (funext fun a => Fin.ext ?_)
  match a with
  | ⟨0, _⟩ => show win1_2.index t (0 : Fin 1) * 32 + 1 * q.val = q.val; rw [e4]; omega

/-- What point `t` writes back is block `t` of the layer's last step of the whole arrays. -/
theorem flushed3_eq (c : Dev nD) (t : Fin cfg1.N) :
    (dat1 V c).flushed 3 t = ((cfg1.win 3).blk t).view.read (Elt Ideal)
      (Cert.Spec.comb (M := 262144) (N := 32) (V c main_v13) (V c main_v0_1) (V c main_arg7)) := by
  show (cfg1.win 3).cut (grid1.coords t) ((dat1 V c).after 3 t) = _
  rw [after1_3]
  unfold out1_3
  rw [View.canon_unit_zero hz]
  simp only [View.ld_unit_zero (S := S8192x32) hz, View.ld_unit_zero (S := S32) hz1]
  obtain ⟨-, -, -, -, -, e5, e6⟩ := idx_facts t
  funext j
  show k1_pay1 (iblk1 V c 0 t) (iblk1 V c 1 t) (iblk1 V c 2 t) j = Cert.Spec.comb (M := 262144) (N := 32) (V c main_v13) (V c main_v0_1) (V c main_arg7) (((cfg1.win 3).blk t).view.emb j)
  refine block_eq (V c main_v13) (V c main_v0_1) (V c main_arg7) t.val (ht t)
    (iblk1 V c 0 t) (iblk1 V c 1 t) (iblk1 V c 2 t) (fun p q => iblk0_apply V c t p q) (fun p q => iblk1_apply V c t p q)
    (fun q => iblk2_apply V c t q) j (((cfg1.win 3).blk t).view.emb j) ?_ ?_
  · show win1_3.index t (0 : Fin 2) * 8192 + 1 * (j 0).val = t.val * 8192 + (j 0).val; rw [e5]; omega
  · show win1_3.index t (1 : Fin 2) * 32 + 1 * (j 1).val = (j 1).val; rw [e6]; omega

/-- An index is in point `t`'s block of the output iff each coordinate is in the block's range. -/
theorem mem_blk3 (t : Fin cfg1.N) (i : S262144x32.Idx) :
    i ∈ ((cfg1.win 3).blk t).view.set ↔ ∀ a : Fin 2, win1_3.index t a * S8192x32.size a ≤ (i a).val ∧ (i a).val < win1_3.index t a * S8192x32.size a + S8192x32.size a := by
  show i ∈ ((View.whole main_v14).slice (win1_3.rect t)).set ↔ _
  rw [View.set_slice_whole, Rect.mem_set_unit]
  exact Iff.rfl

/-- The point whose block holds row `r` is `r / 8192`. -/
theorem cover3 (i : S262144x32.Idx) : ∃ t : Fin cfg1.N, (cfg1.win 3).flush t = true ∧ i ∈ ((cfg1.win 3).blk t).view.set := by
  have hi0 : (i 0).val < 262144 := (i 0).isLt
  have hi1 : (i 1).val < 32 := (i 1).isLt
  have ht : (i 0).val / 8192 < cfg1.N := by rw [hN]; omega
  obtain ⟨-, -, -, -, -, e5, e6⟩ := idx_facts ⟨(i 0).val / 8192, ht⟩
  refine ⟨⟨(i 0).val / 8192, ht⟩, flush1_3 _, ?_⟩
  rw [mem_blk3]
  intro a
  match a with
  | ⟨0, _⟩ =>
    show win1_3.index ⟨(i 0).val / 8192, ht⟩ (0 : Fin 2) * 8192 ≤ (i 0).val ∧ (i 0).val < win1_3.index ⟨(i 0).val / 8192, ht⟩ (0 : Fin 2) * 8192 + 8192
    rw [e5]; show (i 0).val / 8192 * 8192 ≤ (i 0).val ∧ (i 0).val < (i 0).val / 8192 * 8192 + 8192; omega
  | ⟨1, _⟩ =>
    show win1_3.index ⟨(i 0).val / 8192, ht⟩ (1 : Fin 2) * 32 ≤ (i 1).val ∧ (i 1).val < win1_3.index ⟨(i 0).val / 8192, ht⟩ (1 : Fin 2) * 32 + 32
    rw [e6]; omega

/-- After the region the output array is the layer's last step of the sums, the self term and the bias. -/
theorem final3 (c : Dev nD) :
    (dat1 V c).arrAt 3 cfg1.N = Cert.Spec.comb (M := 262144) (N := 32) (V c main_v13) (V c main_v0_1) (V c main_arg7) :=
  (dat1 V c).arrAt_eq_of_cover 3 _ (fun t _ => flushed3_eq V c t) cover3

end Cert.KernelIdeal.Comb1

end
-- ==== Proof.Comb3.lean ====
/-
  The second layer's combine region. Its grid has 32 points; point `t` reads rows `8192 t … 8192 t + 8191` of the
  neighbourhood sums and of the self term (two `262144 × 32` arrays) and the whole bias row (32 entries), adds the two
  blocks, adds the bias to every row, takes the positive part, and writes the block back as the same rows of its
  output. The row blocks tile the output, so after the region the output array is, entry by entry, the larger of zero
  and (sum + self term) + bias — for any contents of the buffers at entry.
-/
import proofs.«129428_j71330816852788_2_alg».proof.Proof.KernelIdealFrameP
import proofs.«129428_j71330816852788_2_alg».proof.Proof.Spec
import Idealize.ShloMosaic.Lib.Pipeline.Value
import Idealize.ShloMosaic.Lib.ValueLayout

set_option maxRecDepth 16384

noncomputable section

namespace Cert.KernelIdeal.Comb3

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

theorem hN : cfg3.N = 32 := N_3

/-- A grid point is one of the 32 row blocks. -/
theorem ht (t : Fin cfg3.N) : t.val < 32 := by have := t.isLt; have h32 : cfg3.N = 32 := hN; omega

/-- The body's arithmetic, entry by entry: the two blocks added, the bias row added to every row, the positive part. -/
theorem pay1_apply (x0 x1 : Vec Ideal S8192x32 .f32) (x2 : Vec Ideal S32 .f32) (p : Fin 8192) (q : Fin 32) :
    k3_pay1 x0 x1 x2 (ix2 p q)
      = max ((x0 (ix2 p q) + x1 (ix2 p q)) + x2 (ix1 q)) (Ideal.ofBits .f32 0x00000000#32) := by
  simp only [k3_pay1, shapeCast_self]
  rw [maximumf_apply, addf_apply, addf_apply, broadcast_apply, broadcastTo_1b_ab_apply, shapeCast_a_1a_apply]
  rfl

/-- The printed index maps over the grid: the two inputs and the output move down one row block per point, the bias
    stays at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- A block's result is the rows of the whole result: if `x0`, `x1` are rows `8192 r …` of `A`, `B` and `x2` is the bias,
    the body's value at `y` is the layer's last step of `A`, `B`, the bias at row `8192 r + y₀`, column `y₁`. -/
theorem block_eq (A B : FVec Ideal S262144x32 .f32) (bias : FVec Ideal S32 .f32) (r : ℕ) (hr : r < 32)
    (x0 x1 : Vec Ideal S8192x32 .f32) (x2 : Vec Ideal S32 .f32)
    (hx0 : ∀ (p : Fin 8192) (q : Fin 32), x0 (ix2 p q) = A (ix2 (Cert.Spec.rowOf r hr p) q))
    (hx1 : ∀ (p : Fin 8192) (q : Fin 32), x1 (ix2 p q) = B (ix2 (Cert.Spec.rowOf r hr p) q))
    (hx2 : ∀ q : Fin 32, x2 (ix1 q) = bias (ix1 q))
    (y : S8192x32.Idx) (i : S262144x32.Idx) (hi0 : (i 0).val = r * 8192 + (y 0).val) (hi1 : (i 1).val = (y 1).val) :
    k3_pay1 x0 x1 x2 y = Cert.Spec.comb (M := 262144) (N := 32) A B bias i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay1_apply, Cert.Spec.comb_ix2, hx0, hx1, hx2]

/-- Point `t`'s block of the neighbourhood sums is rows `8192 t …` of that array as the region finds it. -/
theorem iblk0_apply (c : Dev nD) (t : Fin cfg3.N) (p : Fin 8192) (q : Fin 32) :
    (iblk3 V c 0 t : Vec Ideal S8192x32 .f32) (ix2 p q)
      = (V c main_v28 : FVec Ideal S262144x32 .f32) (ix2 (Cert.Spec.rowOf t.val (ht t) p) q) := by
  obtain ⟨e0, e1, -⟩ := idx_facts t
  show V c main_v28 (((cfg3.win 0).blk t).view.emb (ix2 p q)) = _
  refine congrArg (V c main_v28) (funext fun a => Fin.ext ?_)
  match a with
  | ⟨0, _⟩ => show win3_0.index t (0 : Fin 2) * 8192 + 1 * p.val = t.val * 8192 + p.val; rw [e0]; omega
  | ⟨1, _⟩ => show win3_0.index t (1 : Fin 2) * 32 + 1 * q.val = q.val; rw [e1]; omega

/-- Point `t`'s block of the self term is rows `8192 t …` of that array as the region finds it. -/
theorem iblk1_apply (c : Dev nD) (t : Fin cfg3.N) (p : Fin 8192) (q : Fin 32) :
    (iblk3 V c 1 t : Vec Ideal S8192x32 .f32) (ix2 p q)
      = (V c main_v15_1 : FVec Ideal S262144x32 .f32) (ix2 (Cert.Spec.rowOf t.val (ht t) p) q) := by
  obtain ⟨-, -, e2, e3, -⟩ := idx_facts t
  show V c main_v15_1 (((cfg3.win 1).blk t).view.emb (ix2 p q)) = _
  refine congrArg (V c main_v15_1) (funext fun a => Fin.ext ?_)
  match a with
  | ⟨0, _⟩ => show win3_1.index t (0 : Fin 2) * 8192 + 1 * p.val = t.val * 8192 + p.val; rw [e2]; omega
  | ⟨1, _⟩ => show win3_1.index t (1 : Fin 2) * 32 + 1 * q.val = q.val; rw [e3]; omega

/-- Every point's block of the bias is the whole bias row. -/
theorem iblk2_apply (c : Dev nD) (t : Fin cfg3.N) (q : Fin 32) :
    (iblk3 V c 2 t : Vec Ideal S32 .f32) (ix1 q) = (V c main_arg10 : FVec Ideal S32 .f32) (ix1 q) := by
  obtain ⟨-, -, -, -, e4, -⟩ := idx_facts t
  show V c main_arg10 (((cfg3.win 2).blk t).view.emb (ix1 q)) = _
  refine congrArg (V c main_arg10) (funext fun a => Fin.ext ?_)
  match a with
  | ⟨0, _⟩ => show win3_2.index t (0 : Fin 1) * 32 + 1 * q.val = q.val; rw [e4]; omega

/-- What point `t` writes back is block `t` of the layer's last step of the whole arrays. -/
theorem flushed3_eq (c : Dev nD) (t : Fin cfg3.N) :
    (dat3 V c).flushed 3 t = ((cfg3.win 3).blk t).view.read (Elt Ideal)
      (Cert.Spec.comb (M := 262144) (N := 32) (V c main_v28) (V c main_v15_1) (V c main_arg10)) := by
  show (cfg3.win 3).cut (grid3.coords t) ((dat3 V c).after 3 t) = _
  rw [after3_3]
  unfold out3_3
  rw [View.canon_unit_zero hz]
  simp only [View.ld_unit_zero (S := S8192x32) hz, View.ld_unit_zero (S := S32) hz1]
  obtain ⟨-, -, -, -, -, e5, e6⟩ := idx_facts t
  funext j
  show k3_pay1 (iblk3 V c 0 t) (iblk3 V c 1 t) (iblk3 V c 2 t) j = Cert.Spec.comb (M := 262144) (N := 32) (V c main_v28) (V c main_v15_1) (V c main_arg10) (((cfg3.win 3).blk t).view.emb j)
  refine block_eq (V c main_v28) (V c main_v15_1) (V c main_arg10) t.val (ht t)
    (iblk3 V c 0 t) (iblk3 V c 1 t) (iblk3 V c 2 t) (fun p q => iblk0_apply V c t p q) (fun p q => iblk1_apply V c t p q)
    (fun q => iblk2_apply V c t q) j (((cfg3.win 3).blk t).view.emb j) ?_ ?_
  · show win3_3.index t (0 : Fin 2) * 8192 + 1 * (j 0).val = t.val * 8192 + (j 0).val; rw [e5]; omega
  · show win3_3.index t (1 : Fin 2) * 32 + 1 * (j 1).val = (j 1).val; rw [e6]; omega

/-- An index is in point `t`'s block of the output iff each coordinate is in the block's range. -/
theorem mem_blk3 (t : Fin cfg3.N) (i : S262144x32.Idx) :
    i ∈ ((cfg3.win 3).blk t).view.set ↔ ∀ a : Fin 2, win3_3.index t a * S8192x32.size a ≤ (i a).val ∧ (i a).val < win3_3.index t a * S8192x32.size a + S8192x32.size a := by
  show i ∈ ((View.whole main_v29).slice (win3_3.rect t)).set ↔ _
  rw [View.set_slice_whole, Rect.mem_set_unit]
  exact Iff.rfl

/-- The point whose block holds row `r` is `r / 8192`. -/
theorem cover3 (i : S262144x32.Idx) : ∃ t : Fin cfg3.N, (cfg3.win 3).flush t = true ∧ i ∈ ((cfg3.win 3).blk t).view.set := by
  have hi0 : (i 0).val < 262144 := (i 0).isLt
  have hi1 : (i 1).val < 32 := (i 1).isLt
  have ht : (i 0).val / 8192 < cfg3.N := by rw [hN]; omega
  obtain ⟨-, -, -, -, -, e5, e6⟩ := idx_facts ⟨(i 0).val / 8192, ht⟩
  refine ⟨⟨(i 0).val / 8192, ht⟩, flush3_3 _, ?_⟩
  rw [mem_blk3]
  intro a
  match a with
  | ⟨0, _⟩ =>
    show win3_3.index ⟨(i 0).val / 8192, ht⟩ (0 : Fin 2) * 8192 ≤ (i 0).val ∧ (i 0).val < win3_3.index ⟨(i 0).val / 8192, ht⟩ (0 : Fin 2) * 8192 + 8192
    rw [e5]; show (i 0).val / 8192 * 8192 ≤ (i 0).val ∧ (i 0).val < (i 0).val / 8192 * 8192 + 8192; omega
  | ⟨1, _⟩ =>
    show win3_3.index ⟨(i 0).val / 8192, ht⟩ (1 : Fin 2) * 32 ≤ (i 1).val ∧ (i 1).val < win3_3.index ⟨(i 0).val / 8192, ht⟩ (1 : Fin 2) * 32 + 32
    rw [e6]; omega

/-- After the region the output array is the layer's last step of the sums, the self term and the bias. -/
theorem final3 (c : Dev nD) :
    (dat3 V c).arrAt 3 cfg3.N = Cert.Spec.comb (M := 262144) (N := 32) (V c main_v28) (V c main_v15_1) (V c main_arg10) :=
  (dat3 V c).arrAt_eq_of_cover 3 _ (fun t _ => flushed3_eq V c t) cover3

end Cert.KernelIdeal.Comb3

end
-- ==== Proof.Comb5.lean ====
/-
  The third layer's combine region. Its grid has 32 points; point `t` reads rows `8192 t … 8192 t + 8191` of the
  neighbourhood sums and of the self term (two `262144 × 32` arrays) and the whole bias row (32 entries), adds the two
  blocks, adds the bias to every row, takes the positive part, and writes the block back as the same rows of its
  output. The row blocks tile the output, so after the region the output array is, entry by entry, the larger of zero
  and (sum + self term) + bias — for any contents of the buffers at entry.
-/
import proofs.«129428_j71330816852788_2_alg».proof.Proof.KernelIdealFrameP
import proofs.«129428_j71330816852788_2_alg».proof.Proof.Spec
import Idealize.ShloMosaic.Lib.Pipeline.Value
import Idealize.ShloMosaic.Lib.ValueLayout

set_option maxRecDepth 16384

noncomputable section

namespace Cert.KernelIdeal.Comb5

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

theorem hN : cfg5.N = 32 := N_5

/-- A grid point is one of the 32 row blocks. -/
theorem ht (t : Fin cfg5.N) : t.val < 32 := by have := t.isLt; have h32 : cfg5.N = 32 := hN; omega

/-- The body's arithmetic, entry by entry: the two blocks added, the bias row added to every row, the positive part. -/
theorem pay1_apply (x0 x1 : Vec Ideal S8192x32 .f32) (x2 : Vec Ideal S32 .f32) (p : Fin 8192) (q : Fin 32) :
    k5_pay1 x0 x1 x2 (ix2 p q)
      = max ((x0 (ix2 p q) + x1 (ix2 p q)) + x2 (ix1 q)) (Ideal.ofBits .f32 0x00000000#32) := by
  simp only [k5_pay1, shapeCast_self]
  rw [maximumf_apply, addf_apply, addf_apply, broadcast_apply, broadcastTo_1b_ab_apply, shapeCast_a_1a_apply]
  rfl

/-- The printed index maps over the grid: the two inputs and the output move down one row block per point, the bias
    stays at block 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- A block's result is the rows of the whole result: if `x0`, `x1` are rows `8192 r …` of `A`, `B` and `x2` is the bias,
    the body's value at `y` is the layer's last step of `A`, `B`, the bias at row `8192 r + y₀`, column `y₁`. -/
theorem block_eq (A B : FVec Ideal S262144x32 .f32) (bias : FVec Ideal S32 .f32) (r : ℕ) (hr : r < 32)
    (x0 x1 : Vec Ideal S8192x32 .f32) (x2 : Vec Ideal S32 .f32)
    (hx0 : ∀ (p : Fin 8192) (q : Fin 32), x0 (ix2 p q) = A (ix2 (Cert.Spec.rowOf r hr p) q))
    (hx1 : ∀ (p : Fin 8192) (q : Fin 32), x1 (ix2 p q) = B (ix2 (Cert.Spec.rowOf r hr p) q))
    (hx2 : ∀ q : Fin 32, x2 (ix1 q) = bias (ix1 q))
    (y : S8192x32.Idx) (i : S262144x32.Idx) (hi0 : (i 0).val = r * 8192 + (y 0).val) (hi1 : (i 1).val = (y 1).val) :
    k5_pay1 x0 x1 x2 y = Cert.Spec.comb (M := 262144) (N := 32) A B bias i := by
  obtain ⟨p, q, rfl⟩ : ∃ (p : Fin 8192) (q : Fin 32), y = ix2 p q := ⟨y 0, y 1, eq_ix2 y⟩
  obtain ⟨a, b, rfl⟩ : ∃ (a : Fin 262144) (b : Fin 32), i = ix2 a b := ⟨i 0, i 1, eq_ix2 i⟩
  have ha : a = (Cert.Spec.rowOf r hr p) := Fin.ext hi0
  have hb : b = q := Fin.ext hi1
  subst ha hb
  rw [pay1_apply, Cert.Spec.comb_ix2, hx0, hx1, hx2]

/-- Point `t`'s block of the neighbourhood sums is rows `8192 t …` of that array as the region finds it. -/
theorem iblk0_apply (c : Dev nD) (t : Fin cfg5.N) (p : Fin 8192) (q : Fin 32) :
    (iblk5 V c 0 t : Vec Ideal S8192x32 .f32) (ix2 p q)
      = (V c main_v43 : FVec Ideal S262144x32 .f32) (ix2 (Cert.Spec.rowOf t.val (ht t) p) q) := by
  obtain ⟨e0, e1, -⟩ := idx_facts t
  show V c main_v43 (((cfg5.win 0).blk t).view.emb (ix2 p q)) = _
  refine congrArg (V c main_v43) (funext fun a => Fin.ext ?_)
  match a with
  | ⟨0, _⟩ => show win5_0.index t (0 : Fin 2) * 8192 + 1 * p.val = t.val * 8192 + p.val; rw [e0]; omega
  | ⟨1, _⟩ => show win5_0.index t (1 : Fin 2) * 32 + 1 * q.val = q.val; rw [e1]; omega

/-- Point `t`'s block of the self term is rows `8192 t …` of that array as the region finds it. -/
theorem iblk1_apply (c : Dev nD) (t : Fin cfg5.N) (p : Fin 8192) (q : Fin 32) :
    (iblk5 V c 1 t : Vec Ideal S8192x32 .f32) (ix2 p q)
      = (V c main_v30_1 : FVec Ideal S262144x32 .f32) (ix2 (Cert.Spec.rowOf t.val (ht t) p) q) := by
  obtain ⟨-, -, e2, e3, -⟩ := idx_facts t
  show V c main_v30_1 (((cfg5.win 1).blk t).view.emb (ix2 p q)) = _
  refine congrArg (V c main_v30_1) (funext fun a => Fin.ext ?_)
  match a with
  | ⟨0, _⟩ => show win5_1.index t (0 : Fin 2) * 8192 + 1 * p.val = t.val * 8192 + p.val; rw [e2]; omega
  | ⟨1, _⟩ => show win5_1.index t (1 : Fin 2) * 32 + 1 * q.val = q.val; rw [e3]; omega

/-- Every point's block of the bias is the whole bias row. -/
theorem iblk2_apply (c : Dev nD) (t : Fin cfg5.N) (q : Fin 32) :
    (iblk5 V c 2 t : Vec Ideal S32 .f32) (ix1 q) = (V c main_arg13 : FVec Ideal S32 .f32) (ix1 q) := by
  obtain ⟨-, -, -, -, e4, -⟩ := idx_facts t
  show V c main_arg13 (((cfg5.win 2).blk t).view.emb (ix1 q)) = _
  refine congrArg (V c main_arg13) (funext fun a => Fin.ext ?_)
  match a with
  | ⟨0, _⟩ => show win5_2.index t (0 : Fin 1) * 32 + 1 * q.val = q.val; rw [e4]; omega

/-- What point `t` writes back is block `t` of the layer's last step of the whole arrays. -/
theorem flushed3_eq (c : Dev nD) (t : Fin cfg5.N) :
    (dat5 V c).flushed 3 t = ((cfg5.win 3).blk t).view.read (Elt Ideal)
      (Cert.Spec.comb (M := 262144) (N := 32) (V c main_v43) (V c main_v30_1) (V c main_arg13)) := by
  show (cfg5.win 3).cut (grid5.coords t) ((dat5 V c).after 3 t) = _
  rw [after5_3]
  unfold out5_3
  rw [View.canon_unit_zero hz]
  simp only [View.ld_unit_zero (S := S8192x32) hz, View.ld_unit_zero (S := S32) hz1]
  obtain ⟨-, -, -, -, -, e5, e6⟩ := idx_facts t
  funext j
  show k5_pay1 (iblk5 V c 0 t) (iblk5 V c 1 t) (iblk5 V c 2 t) j = Cert.Spec.comb (M := 262144) (N := 32) (V c main_v43) (V c main_v30_1) (V c main_arg13) (((cfg5.win 3).blk t).view.emb j)
  refine block_eq (V c main_v43) (V c main_v30_1) (V c main_arg13) t.val (ht t)
    (iblk5 V c 0 t) (iblk5 V c 1 t) (iblk5 V c 2 t) (fun p q => iblk0_apply V c t p q) (fun p q => iblk1_apply V c t p q)
    (fun q => iblk2_apply V c t q) j (((cfg5.win 3).blk t).view.emb j) ?_ ?_
  · show win5_3.index t (0 : Fin 2) * 8192 + 1 * (j 0).val = t.val * 8192 + (j 0).val; rw [e5]; omega
  · show win5_3.index t (1 : Fin 2) * 32 + 1 * (j 1).val = (j 1).val; rw [e6]; omega

/-- An index is in point `t`'s block of the output iff each coordinate is in the block's range. -/
theorem mem_blk3 (t : Fin cfg5.N) (i : S262144x32.Idx) :
    i ∈ ((cfg5.win 3).blk t).view.set ↔ ∀ a : Fin 2, win5_3.index t a * S8192x32.size a ≤ (i a).val ∧ (i a).val < win5_3.index t a * S8192x32.size a + S8192x32.size a := by
  show i ∈ ((View.whole main_v44).slice (win5_3.rect t)).set ↔ _
  rw [View.set_slice_whole, Rect.mem_set_unit]
  exact Iff.rfl

/-- The point whose block holds row `r` is `r / 8192`. -/
theorem cover3 (i : S262144x32.Idx) : ∃ t : Fin cfg5.N, (cfg5.win 3).flush t = true ∧ i ∈ ((cfg5.win 3).blk t).view.set := by
  have hi0 : (i 0).val < 262144 := (i 0).isLt
  have hi1 : (i 1).val < 32 := (i 1).isLt
  have ht : (i 0).val / 8192 < cfg5.N := by rw [hN]; omega
  obtain ⟨-, -, -, -, -, e5, e6⟩ := idx_facts ⟨(i 0).val / 8192, ht⟩
  refine ⟨⟨(i 0).val / 8192, ht⟩, flush5_3 _, ?_⟩
  rw [mem_blk3]
  intro a
  match a with
  | ⟨0, _⟩ =>
    show win5_3.index ⟨(i 0).val / 8192, ht⟩ (0 : Fin 2) * 8192 ≤ (i 0).val ∧ (i 0).val < win5_3.index ⟨(i 0).val / 8192, ht⟩ (0 : Fin 2) * 8192 + 8192
    rw [e5]; show (i 0).val / 8192 * 8192 ≤ (i 0).val ∧ (i 0).val < (i 0).val / 8192 * 8192 + 8192; omega
  | ⟨1, _⟩ =>
    show win5_3.index ⟨(i 0).val / 8192, ht⟩ (1 : Fin 2) * 32 ≤ (i 1).val ∧ (i 1).val < win5_3.index ⟨(i 0).val / 8192, ht⟩ (1 : Fin 2) * 32 + 32
    rw [e6]; omega

/-- After the region the output array is the layer's last step of the sums, the self term and the bias. -/
theorem final3 (c : Dev nD) :
    (dat5 V c).arrAt 3 cfg5.N = Cert.Spec.comb (M := 262144) (N := 32) (V c main_v43) (V c main_v30_1) (V c main_arg13) :=
  (dat5 V c).arrAt_eq_of_cover 3 _ (fun t _ => flushed3_eq V c t) cover3

end Cert.KernelIdeal.Comb5

end
-- ==== Proof.Head6.lean ====
/-
  The read-out region. Its grid has one point, which reads the whole pooled array (`4096 × 32`), the whole weight
  column (`32 × 1`) and the one bias entry, multiplies (rounding to bfloat16 first, which at the ideal values changes
  nothing), adds the bias to every row, applies the logistic function, and writes the whole `4096 × 1` result back.
  So after the region the result array is the read-out of the pooled array — for any contents of the buffers at entry.
-/
import proofs.«129428_j71330816852788_2_alg».proof.Proof.KernelIdealFrameP
import proofs.«129428_j71330816852788_2_alg».proof.Proof.Spec
import Idealize.ShloMosaic.Lib.Pipeline.Value
import Idealize.ShloMosaic.Lib.ValueLayout

set_option maxRecDepth 16384

noncomputable section

namespace Cert.KernelIdeal.Head6

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

theorem hN : cfg6.N = 1 := N_6

/-- The body's arithmetic, entry by entry: the logistic function of the row's product with the column plus the bias. -/
theorem pay1_apply (x0 : Vec Ideal S4096x32 .f32) (x1 : Vec Ideal S32x1 .f32) (x2 : Vec Ideal S1 .f32) (g : Fin 4096) (u : Fin 1) :
    k6_pay1 x0 x1 x2 (ix2 g u)
      = Ideal.logistic ((∑ k : Fin 32, x0 (ix2 g k) * x1 (ix2 k u)) + x2 (ix1 (0 : Fin 1))) := by
  obtain rfl : u = (0 : Fin 1) := Subsingleton.elim _ _
  simp only [k6_pay1, shapeCast_self]
  show Ideal.logistic (_ + _) = Ideal.logistic (_ + _)
  rw [broadcastTo_1b_ab_apply, shapeCast_a_1a_apply]
  refine congrArg (fun z => Ideal.logistic (z + x2 (ix1 (0 : Fin 1)))) ?_
  exact Cert.LibPlainMatmul.matmul_zero_apply dot_S4096x32_S32x1_S4096x1_1_0_0_1_n_n rfl rfl rfl rfl rfl rfl none _ _ g 0

/-- The printed index maps at the one point: every window is at block 0. -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0 :=
  (by decide +kernel : ∀ t : Fin grid6.N, _)

/-- The body's value on blocks that are the whole arrays is the read-out of the arrays, at the same index. -/
theorem block_eq (Pl : FVec Ideal S4096x32 .f32) (Wd : FVec Ideal S32x1 .f32) (Bd : FVec Ideal S1 .f32)
    (x0 : Vec Ideal S4096x32 .f32) (x1 : Vec Ideal S32x1 .f32) (x2 : Vec Ideal S1 .f32)
    (hx0 : ∀ (g : Fin 4096) (k : Fin 32), x0 (ix2 g k) = Pl (ix2 g k))
    (hx1 : ∀ (k : Fin 32) (u : Fin 1), x1 (ix2 k u) = Wd (ix2 k u))
    (hx2 : ∀ u : Fin 1, x2 (ix1 u) = Bd (ix1 u))
    (y : S4096x1.Idx) (i : S4096x1.Idx) (hi0 : (i 0).val = (y 0).val) (hi1 : (i 1).val = (y 1).val) :
    k6_pay1 x0 x1 x2 y = Cert.Spec.headF (G := 4096) (K := 32) Pl Wd Bd i := by
  obtain ⟨g, u, rfl⟩ : ∃ (g : Fin 4096) (u : Fin 1), y = ix2 g u := ⟨y 0, y 1, eq_ix2 y⟩
  obtain ⟨a, b, rfl⟩ : ∃ (a : Fin 4096) (b : Fin 1), i = ix2 a b := ⟨i 0, i 1, eq_ix2 i⟩
  have ha : a = g := Fin.ext hi0
  have hb : b = u := Fin.ext hi1
  subst ha hb
  rw [pay1_apply, Cert.Spec.headF_ix2, hx2]
  exact congrArg (fun z => Ideal.logistic (z + Bd (ix1 (0 : Fin 1)))) (Finset.sum_congr rfl fun k _ => by rw [hx0, hx1])

/-- The point's block of the pooled array is the whole array as the region finds it. -/
theorem iblk0_apply (c : Dev nD) (t : Fin cfg6.N) (g : Fin 4096) (k : Fin 32) :
    (iblk6 V c 0 t : Vec Ideal S4096x32 .f32) (ix2 g k) = (V c main_v56 : FVec Ideal S4096x32 .f32) (ix2 g k) := by
  obtain ⟨e0, e1, -⟩ := idx_facts t
  show V c main_v56 (((cfg6.win 0).blk t).view.emb (ix2 g k)) = _
  refine congrArg (V c main_v56) (funext fun a => Fin.ext ?_)
  match a with
  | ⟨0, _⟩ => show win6_0.index t (0 : Fin 2) * 4096 + 1 * g.val = g.val; rw [e0]; omega
  | ⟨1, _⟩ => show win6_0.index t (1 : Fin 2) * 32 + 1 * k.val = k.val; rw [e1]; omega

/-- The point's block of the weight column is the whole column. -/
theorem iblk1_apply (c : Dev nD) (t : Fin cfg6.N) (k : Fin 32) (u : Fin 1) :
    (iblk6 V c 1 t : Vec Ideal S32x1 .f32) (ix2 k u) = (V c main_arg14 : FVec Ideal S32x1 .f32) (ix2 k u) := by
  obtain ⟨-, -, e2, e3, -⟩ := idx_facts t
  show V c main_arg14 (((cfg6.win 1).blk t).view.emb (ix2 k u)) = _
  refine congrArg (V c main_arg14) (funext fun a => Fin.ext ?_)
  match a with
  | ⟨0, _⟩ => show win6_1.index t (0 : Fin 2) * 32 + 1 * k.val = k.val; rw [e2]; omega
  | ⟨1, _⟩ => show win6_1.index t (1 : Fin 2) * 1 + 1 * u.val = u.val; rw [e3]; omega

/-- The point's block of the bias is the bias. -/
theorem iblk2_apply (c : Dev nD) (t : Fin cfg6.N) (u : Fin 1) :
    (iblk6 V c 2 t : Vec Ideal S1 .f32) (ix1 u) = (V c main_arg15 : FVec Ideal S1 .f32) (ix1 u) := by
  obtain ⟨-, -, -, -, e4, -⟩ := idx_facts t
  show V c main_arg15 (((cfg6.win 2).blk t).view.emb (ix1 u)) = _
  refine congrArg (V c main_arg15) (funext fun a => Fin.ext ?_)
  match a with
  | ⟨0, _⟩ => show win6_2.index t (0 : Fin 1) * 1 + 1 * u.val = u.val; rw [e4]; omega

/-- What the point writes back is the read-out of the whole arrays, read through the one block. -/
theorem flushed3_eq (c : Dev nD) (t : Fin cfg6.N) :
    (dat6 V c).flushed 3 t = ((cfg6.win 3).blk t).view.read (Elt Ideal)
      (Cert.Spec.headF (G := 4096) (K := 32) (V c main_v56) (V c main_arg14) (V c main_arg15)) := by
  show (cfg6.win 3).cut (grid6.coords t) ((dat6 V c).after 3 t) = _
  rw [after6_3]
  unfold out6_3
  rw [View.canon_unit_zero hz]
  simp only [View.ld_unit_zero (S := S4096x32) hz, View.ld_unit_zero (S := S32x1) hz, View.ld_unit_zero (S := S1) hz1]
  obtain ⟨-, -, -, -, -, e5, e6⟩ := idx_facts t
  funext j
  show k6_pay1 (iblk6 V c 0 t) (iblk6 V c 1 t) (iblk6 V c 2 t) j = Cert.Spec.headF (G := 4096) (K := 32) (V c main_v56) (V c main_arg14) (V c main_arg15) (((cfg6.win 3).blk t).view.emb j)
  refine block_eq (V c main_v56) (V c main_arg14) (V c main_arg15)
    (iblk6 V c 0 t) (iblk6 V c 1 t) (iblk6 V c 2 t) (fun g k => iblk0_apply V c t g k) (fun k u => iblk1_apply V c t k u)
    (fun u => iblk2_apply V c t u) j (((cfg6.win 3).blk t).view.emb j) ?_ ?_
  · show win6_3.index t (0 : Fin 2) * 4096 + 1 * (j 0).val = (j 0).val; rw [e5]; omega
  · show win6_3.index t (1 : Fin 2) * 1 + 1 * (j 1).val = (j 1).val; rw [e6]; omega

/-- An index is in the point's block of the result iff each coordinate is in the block's range. -/
theorem mem_blk3 (t : Fin cfg6.N) (i : S4096x1.Idx) :
    i ∈ ((cfg6.win 3).blk t).view.set ↔ ∀ a : Fin 2, win6_3.index t a * S4096x1.size a ≤ (i a).val ∧ (i a).val < win6_3.index t a * S4096x1.size a + S4096x1.size a := by
  show i ∈ ((View.whole main_v57).slice (win6_3.rect t)).set ↔ _
  rw [View.set_slice_whole, Rect.mem_set_unit]
  exact Iff.rfl

/-- The one block is the whole result array. -/
theorem cover3 (i : S4096x1.Idx) : ∃ t : Fin cfg6.N, (cfg6.win 3).flush t = true ∧ i ∈ ((cfg6.win 3).blk t).view.set := by
  have hi0 : (i 0).val < 4096 := (i 0).isLt
  have hi1 : (i 1).val < 1 := (i 1).isLt
  have ht : 0 < cfg6.N := by rw [hN]; omega
  obtain ⟨-, -, -, -, -, e5, e6⟩ := idx_facts ⟨0, ht⟩
  refine ⟨⟨0, ht⟩, flush6_3 _, ?_⟩
  rw [mem_blk3]
  intro a
  match a with
  | ⟨0, _⟩ =>
    show win6_3.index ⟨0, ht⟩ (0 : Fin 2) * 4096 ≤ (i 0).val ∧ (i 0).val < win6_3.index ⟨0, ht⟩ (0 : Fin 2) * 4096 + 4096
    rw [e5]; omega
  | ⟨1, _⟩ =>
    show win6_3.index ⟨0, ht⟩ (1 : Fin 2) * 1 ≤ (i 1).val ∧ (i 1).val < win6_3.index ⟨0, ht⟩ (1 : Fin 2) * 1 + 1
    rw [e6]; omega

/-- After the region the result array is the read-out of the pooled array, the weight column and the bias. -/
theorem final3 (c : Dev nD) :
    (dat6 V c).arrAt 3 cfg6.N = Cert.Spec.headF (G := 4096) (K := 32) (V c main_v56) (V c main_arg14) (V c main_arg15) :=
  (dat6 V c).arrAt_eq_of_cover 3 _ (fun t _ => flushed3_eq V c t) cover3

end Cert.KernelIdeal.Head6

end
-- ==== Proof.Stages.lean ====
/-
  The idealized kernel program's buffers, boundary by boundary, are the reference's stages. The reference's result is
  read as a chain of named stages (its generated read-at-an-index module): per layer the projection `x W1`, the
  gather–weight–scatter chain, the self term `x W2`, the sum with the bias and the positive part; then the pooling
  chain and the read-out. The kernel program computes the two projections, the last step of each layer and the read-out
  in kernel regions and everything else by the same host operations. Region by region and stretch by stretch the buffer a
  segment writes is the reference's stage of the launch arguments: a region by its whole-array function against the
  stage read the same way, a host stretch because it is the same operations on equal operands.
-/
import proofs.«129428_j71330816852788_2_alg».proof.Proof.Keep
import proofs.«129428_j71330816852788_2_alg».proof.Proof.Proj0
import proofs.«129428_j71330816852788_2_alg».proof.Proof.Proj2
import proofs.«129428_j71330816852788_2_alg».proof.Proof.Proj4
import proofs.«129428_j71330816852788_2_alg».proof.Proof.Comb1
import proofs.«129428_j71330816852788_2_alg».proof.Proof.Comb3
import proofs.«129428_j71330816852788_2_alg».proof.Proof.Comb5
import proofs.«129428_j71330816852788_2_alg».proof.Proof.Head6
import proofs.«129428_j71330816852788_2_alg».proof.Proof.Gen.ReferenceIdeal.Read
import Idealize.ShloMosaic.Lib.IdealHost

set_option maxRecDepth 16384

noncomputable section

namespace Cert.KernelIdeal.Whole

open Cert.KernelIdeal Cert.KernelIdeal.Gen Cert.KernelIdeal.GenP
open Idealize.ShloMosaic Idealize.ShloMosaic.TcCoe Idealize.SL.Sem Idealize.ShloMosaic.ValueIdx
open Idealize.ShloMosaic.StableHlo
open Cert.ReferenceIdeal.Read

variable (m : (ℓ : Loc nD τ sig) → Buf (Elt Ideal) ℓ) (ρ : Dev nD → PrngReg) (c : Dev nD)

-- `a0` … `a15`: the launch contents of the sixteen argument arrays on core `c`
set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)

/-! ## The reference's stages against the three array functions -/

/-- The index a bias entry is read at through the reference's two broadcasts is the column. -/
theorem bias_idx1 (i : S262144x32.Idx) : idx_main_v16 (idx_main_v17 i) = ix1 (Cert.Spec.col i) :=
  funext fun a => by match a with | ⟨0, _⟩ => rfl
theorem bias_idx2 (i : S262144x32.Idx) : idx_main_v36 (idx_main_v37 i) = ix1 (Cert.Spec.col i) :=
  funext fun a => by match a with | ⟨0, _⟩ => rfl
theorem bias_idx3 (i : S262144x32.Idx) : idx_main_v56 (idx_main_v57 i) = ix1 (Cert.Spec.col i) :=
  funext fun a => by match a with | ⟨0, _⟩ => rfl
/-- The index the read-out's bias is read at through the reference's two broadcasts is its one entry. -/
theorem bias_idx4 (i : S4096x1.Idx) : idx_main_v73 (idx_main_v74 i) = ix1 (0 : Fin 1) :=
  funext fun a => by match a with | ⟨0, _⟩ => rfl

/-- The first layer's output of the reference is the layer's last step of its neighbourhood sum, self term and bias. -/
theorem ref_v19 :
    val_main_v19 (F := Ideal) a0 a1 a2 a3 a5 a6 a7
      = Cert.Spec.comb (M := 262144) (N := 32) (val_main_v13 (F := Ideal) a0 a1 a2 a3 a5) (val_main_v14 (F := Ideal) a0 a6) a7 := by
  funext i
  rw [val_main_v19_apply, val_main_v18_apply, val_main_v15_apply, val_main_v17_apply, val_main_v16_apply,
    val_main_call0_v0_apply, val_main_call0_cst_apply, bias_idx1]
  rfl

/-- The second layer's output of the reference, likewise. -/
theorem ref_v39 :
    val_main_v39 (F := Ideal) a0 a1 a2 a3 a5 a6 a7 a8 a9 a10
      = Cert.Spec.comb (M := 262144) (N := 32) (val_main_v33 (F := Ideal) a0 a1 a2 a3 a5 a6 a7 a8)
          (val_main_v34 (F := Ideal) a0 a1 a2 a3 a5 a6 a7 a9) a10 := by
  funext i
  rw [val_main_v39_apply, val_main_v38_apply, val_main_v35_apply, val_main_v37_apply, val_main_v36_apply,
    val_main_call1_v0_apply, val_main_call1_cst_apply, bias_idx2]
  rfl

/-- The third layer's output of the reference, likewise. -/
theorem ref_v59 :
    val_main_v59 (F := Ideal) a0 a1 a2 a3 a5 a6 a7 a8 a9 a10 a11 a12 a13
      = Cert.Spec.comb (M := 262144) (N := 32) (val_main_v53 (F := Ideal) a0 a1 a2 a3 a5 a6 a7 a8 a9 a10 a11)
          (val_main_v54 (F := Ideal) a0 a1 a2 a3 a5 a6 a7 a8 a9 a10 a12) a13 := by
  funext i
  rw [val_main_v59_apply, val_main_v58_apply, val_main_v55_apply, val_main_v57_apply, val_main_v56_apply,
    val_main_call2_v0_apply, val_main_call2_cst_apply, bias_idx3]
  rfl

/-- The host's `1 / (1 + exp (−z))` is the logistic function of `z`, on every extended real: the definition of the
    latter. -/
theorem host_logistic (z : Ideal .f32) :
    FloatOps.hostDivf (1 : Ideal .f32) (FloatOps.addf 1 (FloatOps.hostUnary .exp (FloatOps.hostNegf z))) = Ideal.logistic z := rfl

/-- The reference's result is the read-out of its pooled stage: its `1 / (1 + exp (−z))` is the logistic function of
    `z` on every extended real, by definition. -/
theorem ref_v81 :
    val_main_v81 (F := Ideal) a0 a1 a2 a3 a4 a5 a6 a7 a8 a9 a10 a11 a12 a13 a14 a15
      = Cert.Spec.headF (G := 4096) (K := 32) (val_main_v71 (F := Ideal) a0 a1 a2 a3 a4 a5 a6 a7 a8 a9 a10 a11 a12 a13) a14 a15 := by
  funext i
  obtain ⟨g, u, rfl⟩ : ∃ (g : Fin 4096) (u : Fin 1), i = ix2 g u := ⟨i 0, i 1, eq_ix2 i⟩
  rw [val_main_v81_apply, val_main_v80_apply, val_main_cst_12_apply, val_main_v79_apply, val_main_v78_apply,
    val_main_cst_11_apply, val_main_v77_apply, val_main_v76_apply, val_main_v75_apply, val_main_v74_apply,
    val_main_v73_apply, bias_idx4, Cert.Spec.headF_ix2]
  have hd : val_main_v72 (F := Ideal) a0 a1 a2 a3 a4 a5 a6 a7 a8 a9 a10 a11 a12 a13 a14 (ix2 g u)
      = ∑ k : Fin 32, val_main_v71 (F := Ideal) a0 a1 a2 a3 a4 a5 a6 a7 a8 a9 a10 a11 a12 a13 (ix2 g k) * a14 (ix2 k u) := by
    unfold val_main_v72
    exact congrFun (Cert.Spec.hostDot_eq_mm (M := 4096) (K := 32) (N := 1) _ rfl rfl rfl rfl rfl rfl none _ _) (ix2 g u)
  rw [hd, show (FloatOps.ofBits (F := Ideal) .f32 0x3F800000#32 : Ideal .f32) = 1 from Idealize.ShloMosaic.Ideal.ofBits_one_f32]
  exact host_logistic _

/-! ## The kernel program's buffers, boundary by boundary -/

/-- After region 0 its first output is the reference's first projection. -/
theorem at1_h : W1 m ρ c (Proc.devRef .tc main_v0_0) = val_main_v0 (F := Ideal) a0 a5 := by
  refine (W1_arr m ρ c 3).trans ((Cert.KernelIdeal.Proj0.final3 (V0 m ρ) c).trans ?_)
  unfold val_main_v0
  exact (Cert.Spec.hostDot_eq_mm (M := 262144) (K := 1) (N := 32) _ rfl rfl rfl rfl rfl rfl none _ _).symm

/-- After region 0 its second output is the reference's first self term. -/
theorem at1_s : W1 m ρ c (Proc.devRef .tc main_v0_1) = val_main_v14 (F := Ideal) a0 a6 := by
  refine (W1_arr m ρ c 4).trans ((Cert.KernelIdeal.Proj0.final4 (V0 m ρ) c).trans ?_)
  unfold val_main_v14
  exact (Cert.Spec.hostDot_eq_mm (M := 262144) (K := 1) (N := 32) _ rfl rfl rfl rfl rfl rfl none _ _).symm

/-- After the first host stretch the neighbourhood sums are the reference's: the same gather, weighting and
    scatter-add of equal operands. -/
theorem at2 : W2 m ρ c (Proc.devRef .tc main_v13) = val_main_v13 (F := Ideal) a0 a1 a2 a3 a5 := by
  show StableHlo.after (hostOps1 (F := Ideal)) (W1 m ρ c) (Proc.devRef .tc main_v13) = _
  dsimp only [hostOps1]
  after_results_simp
  rw [at1_h m ρ c, argAt1 m ρ c main_arg1 (by decide), argAt1 m ρ c main_arg2 (by decide), argAt1 m ρ c main_arg3 (by decide)]
  rfl

/-- After region 1 its output is the reference's first layer. -/
theorem at3 : W3 m ρ c (Proc.devRef .tc main_v14) = val_main_v19 (F := Ideal) a0 a1 a2 a3 a5 a6 a7 := by
  refine (W3_arr m ρ c 3).trans ((Cert.KernelIdeal.Comb1.final3 (V2 m ρ) c).trans ?_)
  show Cert.Spec.comb (M := 262144) (N := 32) (W2 m ρ c (Proc.devRef .tc main_v13)) (W2 m ρ c (Proc.devRef .tc main_v0_1))
    (W2 m ρ c (Proc.devRef .tc main_arg7)) = _
  rw [at2 m ρ c, self1 m ρ c, at1_s m ρ c, argAt2 m ρ c main_arg7 (by decide)]
  exact (ref_v19 m c).symm

/-- After region 2 its first output is the reference's second projection. -/
theorem at4_h : W4 m ρ c (Proc.devRef .tc main_v15_0) = val_main_v20 (F := Ideal) a0 a1 a2 a3 a5 a6 a7 a8 := by
  refine (W4_arr m ρ c 3).trans ((Cert.KernelIdeal.Proj2.final3 (V3 m ρ) c).trans ?_)
  show Cert.Spec.mm (M := 262144) (K := 32) (N := 32) (W3 m ρ c (Proc.devRef .tc main_v14)) (W3 m ρ c (Proc.devRef .tc main_arg8)) = _
  rw [at3 m ρ c, argAt3 m ρ c main_arg8 (by decide)]
  unfold val_main_v20
  exact (Cert.Spec.hostDot_eq_mm (M := 262144) (K := 32) (N := 32) _ rfl rfl rfl rfl rfl rfl none _ _).symm

/-- After region 2 its second output is the reference's second self term. -/
theorem at4_s : W4 m ρ c (Proc.devRef .tc main_v15_1) = val_main_v34 (F := Ideal) a0 a1 a2 a3 a5 a6 a7 a9 := by
  refine (W4_arr m ρ c 4).trans ((Cert.KernelIdeal.Proj2.final4 (V3 m ρ) c).trans ?_)
  show Cert.Spec.mm (M := 262144) (K := 32) (N := 32) (W3 m ρ c (Proc.devRef .tc main_v14)) (W3 m ρ c (Proc.devRef .tc main_arg9)) = _
  rw [at3 m ρ c, argAt3 m ρ c main_arg9 (by decide)]
  unfold val_main_v34
  exact (Cert.Spec.hostDot_eq_mm (M := 262144) (K := 32) (N := 32) _ rfl rfl rfl rfl rfl rfl none _ _).symm

/-- After the second host stretch the neighbourhood sums are the reference's. -/
theorem at5 : W5 m ρ c (Proc.devRef .tc main_v28) = val_main_v33 (F := Ideal) a0 a1 a2 a3 a5 a6 a7 a8 := by
  show StableHlo.after (hostOps3 (F := Ideal)) (W4 m ρ c) (Proc.devRef .tc main_v28) = _
  dsimp only [hostOps3]
  after_results_simp
  rw [at4_h m ρ c, argAt4 m ρ c main_arg1 (by decide), argAt4 m ρ c main_arg2 (by decide), argAt4 m ρ c main_arg3 (by decide)]
  rfl

/-- After region 3 its output is the reference's second layer. -/
theorem at6 : W6 m ρ c (Proc.devRef .tc main_v29) = val_main_v39 (F := Ideal) a0 a1 a2 a3 a5 a6 a7 a8 a9 a10 := by
  refine (W6_arr m ρ c 3).trans ((Cert.KernelIdeal.Comb3.final3 (V5 m ρ) c).trans ?_)
  show Cert.Spec.comb (M := 262144) (N := 32) (W5 m ρ c (Proc.devRef .tc main_v28)) (W5 m ρ c (Proc.devRef .tc main_v15_1))
    (W5 m ρ c (Proc.devRef .tc main_arg10)) = _
  rw [at5 m ρ c, self2 m ρ c, at4_s m ρ c, argAt5 m ρ c main_arg10 (by decide)]
  exact (ref_v39 m c).symm

/-- After region 4 its first output is the reference's third projection. -/
theorem at7_h : W7 m ρ c (Proc.devRef .tc main_v30_0) = val_main_v40 (F := Ideal) a0 a1 a2 a3 a5 a6 a7 a8 a9 a10 a11 := by
  refine (W7_arr m ρ c 3).trans ((Cert.KernelIdeal.Proj4.final3 (V6 m ρ) c).trans ?_)
  show Cert.Spec.mm (M := 262144) (K := 32) (N := 32) (W6 m ρ c (Proc.devRef .tc main_v29)) (W6 m ρ c (Proc.devRef .tc main_arg11)) = _
  rw [at6 m ρ c, argAt6 m ρ c main_arg11 (by decide)]
  unfold val_main_v40
  exact (Cert.Spec.hostDot_eq_mm (M := 262144) (K := 32) (N := 32) _ rfl rfl rfl rfl rfl rfl none _ _).symm

/-- After region 4 its second output is the reference's third self term. -/
theorem at7_s : W7 m ρ c (Proc.devRef .tc main_v30_1) = val_main_v54 (F := Ideal) a0 a1 a2 a3 a5 a6 a7 a8 a9 a10 a12 := by
  refine (W7_arr m ρ c 4).trans ((Cert.KernelIdeal.Proj4.final4 (V6 m ρ) c).trans ?_)
  show Cert.Spec.mm (M := 262144) (K := 32) (N := 32) (W6 m ρ c (Proc.devRef .tc main_v29)) (W6 m ρ c (Proc.devRef .tc main_arg12)) = _
  rw [at6 m ρ c, argAt6 m ρ c main_arg12 (by decide)]
  unfold val_main_v54
  exact (Cert.Spec.hostDot_eq_mm (M := 262144) (K := 32) (N := 32) _ rfl rfl rfl rfl rfl rfl none _ _).symm

/-- After the third host stretch the neighbourhood sums are the reference's. -/
theorem at8 : W8 m ρ c (Proc.devRef .tc main_v43) = val_main_v53 (F := Ideal) a0 a1 a2 a3 a5 a6 a7 a8 a9 a10 a11 := by
  show StableHlo.after (hostOps5 (F := Ideal)) (W7 m ρ c) (Proc.devRef .tc main_v43) = _
  dsimp only [hostOps5]
  after_results_simp
  rw [at7_h m ρ c, argAt7 m ρ c main_arg1 (by decide), argAt7 m ρ c main_arg2 (by decide), argAt7 m ρ c main_arg3 (by decide)]
  rfl

/-- After region 5 its output is the reference's third layer. -/
theorem at9 : W9 m ρ c (Proc.devRef .tc main_v44) = val_main_v59 (F := Ideal) a0 a1 a2 a3 a5 a6 a7 a8 a9 a10 a11 a12 a13 := by
  refine (W9_arr m ρ c 3).trans ((Cert.KernelIdeal.Comb5.final3 (V8 m ρ) c).trans ?_)
  show Cert.Spec.comb (M := 262144) (N := 32) (W8 m ρ c (Proc.devRef .tc main_v43)) (W8 m ρ c (Proc.devRef .tc main_v30_1))
    (W8 m ρ c (Proc.devRef .tc main_arg13)) = _
  rw [at8 m ρ c, self3 m ρ c, at7_s m ρ c, argAt8 m ρ c main_arg13 (by decide)]
  exact (ref_v59 m c).symm

/-- After the last host stretch the pooled array is the reference's: the same segment sums, counts and division of
    equal operands. -/
theorem at10 : W10 m ρ c (Proc.devRef .tc main_v56) = val_main_v71 (F := Ideal) a0 a1 a2 a3 a4 a5 a6 a7 a8 a9 a10 a11 a12 a13 := by
  show StableHlo.after (hostOps6 (F := Ideal)) (W9 m ρ c) (Proc.devRef .tc main_v56) = _
  dsimp only [hostOps6]
  after_results_simp
  rw [at9 m ρ c, argAt9 m ρ c main_arg4 (by decide)]
  rfl

/-- After the last region the result array is the reference's result. -/
theorem at11 : W11 m ρ c (Proc.devRef .tc main_v57)
    = val_main_v81 (F := Ideal) a0 a1 a2 a3 a4 a5 a6 a7 a8 a9 a10 a11 a12 a13 a14 a15 := by
  refine (W11_arr m ρ c 3).trans ((Cert.KernelIdeal.Head6.final3 (V10 m ρ) c).trans ?_)
  show Cert.Spec.headF (G := 4096) (K := 32) (W10 m ρ c (Proc.devRef .tc main_v56)) (W10 m ρ c (Proc.devRef .tc main_arg14))
    (W10 m ρ c (Proc.devRef .tc main_arg15)) = _
  rw [at10 m ρ c, argAt10 m ρ c main_arg14 (by decide), argAt10 m ρ c main_arg15 (by decide)]
  exact (ref_v81 m c).symm

/-- The common result: the reference's last stage of the kernel program's launch arguments. -/
abbrev result : Buf (Elt Ideal) ((c.tc : Thread nD τ).loc main_v57) :=
  val_main_v81 (F := Ideal) a0 a1 a2 a3 a4 a5 a6 a7 a8 a9 a10 a11 a12 a13 a14 a15

theorem at11_result : W11 m ρ c (Proc.devRef .tc main_v57) = result m c := at11 m ρ c

end Cert.KernelIdeal.Whole

end
-- ==== Proof.lean ====
/-
  A three-layer graph convolution network with mean pooling and a logistic read-out, as a kernel program and as a
  plain reference. Per layer both compute `relu (A (x W1) + x W2 + b)`: the neighbourhood term gathers the rows of `x W1`
  at the edges' sources, weights them and adds them up at the edges' destinations; the pooling divides each graph's
  sum of node rows by its node count (at least one); the read-out is `1 / (1 + exp (−(p Wd + bd)))`. The kernel program
  computes the six products, each layer's `relu (· + · + b)` and the read-out in kernel regions over row blocks, rounding
  the products' operands to bfloat16 first, and the gathers, scatters and the pooling by the reference's own host
  operations. At the ideal values a rounding is the identity, a product over row blocks is the whole product, the
  kernel's logistic function is by definition the reference's expression, and everything else is the same operations in
  the same order: the two results are equal on all extended reals, so the precondition is never opened.
  The frames of the two kernel programs are the frame certificates of their seven regions; the reference's frame is its
  run; the idealization rewrote nothing.
-/
import proofs.«129428_j71330816852788_2_alg».proof.Defs
import proofs.«129428_j71330816852788_2_alg».proof.Proof.KernelFrameP
import proofs.«129428_j71330816852788_2_alg».proof.Proof.RunAll
import proofs.«129428_j71330816852788_2_alg».proof.Proof.Stages
import proofs.«129428_j71330816852788_2_alg».proof.Proof.Gen.Pre_finite_inputs
import proofs.«129428_j71330816852788_2_alg».proof.Proof.Gen.ReferenceIdeal.Run
import proofs.«129428_j71330816852788_2_alg».proof.Proof.Gen.ReferenceIdeal.Read
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the launch arguments in their result arrays: the kernel
    program because each segment's buffer is the reference's stage, the reference by its run, the arguments agreeing. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun r h c => ⟨(h c).1.trans (Cert.KernelIdeal.Whole.at11_result m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v81_eq, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
